-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S640000x128 : Shape := ⟨2, ![640000, 128]⟩
abbrev S1x128 : Shape := ⟨2, ![1, 128]⟩
abbrev S50000x64 : Shape := ⟨2, ![50000, 64]⟩
abbrev S2000x128 : Shape := ⟨2, ![2000, 128]⟩
abbrev S2000x1 : Shape := ⟨2, ![2000, 1]⟩
abbrev S2000x64 : Shape := ⟨2, ![2000, 64]⟩
abbrev S640000x64 : Shape := ⟨2, ![640000, 64]⟩
abbrev S1x64 : Shape := ⟨2, ![1, 64]⟩

abbrev nBuf : Space → Nat
  | .hbm => 59
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S50000, .f32⟩
  | .hbm, ⟨16, _⟩ => ⟨S640000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x128, .bf16⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x128, .bf16⟩
  | .hbm, ⟨35, _⟩ => ⟨S640000x128, .f32⟩
  | .hbm, ⟨36, _⟩ => ⟨S_, .f32⟩
  | .hbm, ⟨37, _⟩ => ⟨S50000x128, .f32⟩
  | .hbm, ⟨38, _⟩ => ⟨S640000x1, .i32⟩
  | .hbm, ⟨39, _⟩ => ⟨S50000x128, .f32⟩
  | .hbm, ⟨40, _⟩ => ⟨S1x128, .f32⟩
  | .hbm, ⟨41, _⟩ => ⟨S50000x128, .bf16⟩
  | .hbm, ⟨42, _⟩ => ⟨S50000x64, .bf16⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x64, .bf16⟩
  | .hbm, ⟨52, _⟩ => ⟨S640000x64, .f32⟩
  | .hbm, ⟨53, _⟩ => ⟨S_, .f32⟩
  | .hbm, ⟨54, _⟩ => ⟨S50000x64, .f32⟩
  | .hbm, ⟨55, _⟩ => ⟨S640000x1, .i32⟩
  | .hbm, ⟨56, _⟩ => ⟨S50000x64, .f32⟩
  | .hbm, ⟨57, _⟩ => ⟨S1x64, .f32⟩
  | .hbm, ⟨58, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .bf16⟩
  | .local _ .vmem, ⟨3, _⟩ => ⟨S2000x128, .bf16⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S128x64, .f32⟩
  | .local _ .vmem, ⟨8, _⟩ => ⟨S2000x1, .f32⟩
  | .local _ .vmem, ⟨9, _⟩ => ⟨S2000x1, .f32⟩
  | .local _ .vmem, ⟨10, _⟩ => ⟨S2000x128, .bf16⟩
  | .local _ .vmem, ⟨11, _⟩ => ⟨S2000x128, .bf16⟩
  | .local _ .vmem, ⟨12, _⟩ => ⟨S2000x64, .bf16⟩
  | .local _ .vmem, ⟨13, _⟩ => ⟨S2000x64, .bf16⟩
  | .local _ .vmem, ⟨14, _⟩ => ⟨S2000x64, .f32⟩
  | .local _ .vmem, ⟨15, _⟩ => ⟨S2000x64, .f32⟩
  | .local _ .vmem, ⟨16, _⟩ => ⟨S2000x128, .bf16⟩
  | .local _ .vmem, ⟨17, _⟩ => ⟨S2000x128, .bf16⟩
  | .local _ .vmem, ⟨18, _⟩ => ⟨S128x64, .f32⟩
  | .local _ .vmem, ⟨19, _⟩ => ⟨S1x64, .f32⟩
  | .local _ .vmem, ⟨20, _⟩ => ⟨S2000x1, .f32⟩
  | .local _ .vmem, ⟨21, _⟩ => ⟨S2000x1, .f32⟩
  | .local _ .vmem, ⟨22, _⟩ => ⟨S2000x64, .f32⟩
  | .local _ .vmem, ⟨23, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  packedbf16_S2000x128_S2000x128_0_0 : (Rect.unit (s := S2000x128) ![0, 0] S2000x128.size inb_S2000x128_S2000x128_0_0).PackedRows (EltTy.packing .bf16)
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S50000x64_S640000x1_S640000x64_1_0_n_n_0_1_164_wf : GatherDims.WF S50000x64 S640000x1 S640000x64 [1] [0] [] [0] [] 1 ![1, 64]
  scatter_S50000x64_S640000x1_S640000x64_1_0_0_1_wf : ScatterDims.WF S50000x64 S640000x1 S640000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .bf16 = 32 ∨ (Rect.block (s := S50000x128) S2000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x1.size a ≤ S50000x1.size a
  hwx0_6 : ∀ i : grid0.Coords, EltTy.bits .f32 = 32 ∨ (Rect.block (s := S50000x1) S2000x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .bf16 = 32 ∨ (Rect.block (s := S50000x128) S2000x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x64.size a ≤ S50000x64.size a
  hwx0_8 : ∀ i : grid0.Coords, EltTy.bits .bf16 = 32 ∨ (Rect.block (s := S50000x64) S2000x64.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S640000x1_S640000x64_1_0_n_n_0_1_164 : GatherDims S50000x64 S640000x1 S640000x64 where
  offsetDims := [1]
  collapsedSliceDims := [0]
  operandBatchingDims := []
  startIndicesBatchingDims := []
  startIndexMap := [0]
  indexVectorDim := 1
  sliceSizes := ![1, 64]
  wf := gather_S50000x64_S640000x1_S640000x64_1_0_n_n_0_1_164_wf
def scatter_S50000x64_S640000x1_S640000x64_1_0_0_1 : ScatterDims S50000x64 S640000x1 S640000x64 where
  updateWindowDims := [1]
  insertedWindowDims := [0]
  scatterDimsToOperandDims := [0]
  indexVectorDim := 1
  wf := scatter_S50000x64_S640000x1_S640000x64_1_0_0_1_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S2000x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_0) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v26_1) S2000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v37) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 75
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S50000x128, .f32⟩
  | .hbm, ⟨23, _⟩ => ⟨S640000x1, .i32⟩
  | .hbm, ⟨24, _⟩ => ⟨S50000x128, .f32⟩
  | .hbm, ⟨25, _⟩ => ⟨S_, .f32⟩
  | .hbm, ⟨26, _⟩ => ⟨S640000x1, .f32⟩
  | .hbm, ⟨27, _⟩ => ⟨S_, .f32⟩
  | .hbm, ⟨28, _⟩ => ⟨S50000x1, .f32⟩
  | .hbm, ⟨29, _⟩ => ⟨S640000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S640000, .i32⟩
  | .hbm, ⟨47, _⟩ => ⟨S640000, .i1⟩
  | .hbm, ⟨48, _⟩ => ⟨S_, .i32⟩
  | .hbm, ⟨49, _⟩ => ⟨S640000, .i32⟩
  | .hbm, ⟨50, _⟩ => ⟨S640000, .i32⟩
  | .hbm, ⟨51, _⟩ => ⟨S640000, .i32⟩
  | .hbm, ⟨52, _⟩ => ⟨S640000x1, .i32⟩
  | .hbm, ⟨53, _⟩ => ⟨S640000x128, .f32⟩
  | .hbm, ⟨54, _⟩ => ⟨S_, .f32⟩
  | .hbm, ⟨55, _⟩ => ⟨S50000x128, .f32⟩
  | .hbm, ⟨56, _⟩ => ⟨S640000x1, .i32⟩
  | .hbm, ⟨57, _⟩ => ⟨S50000x128, .f32⟩
  | .hbm, ⟨58, _⟩ => ⟨S_, .f32⟩
  | .hbm, ⟨59, _⟩ => ⟨S640000x1, .f32⟩
  | .hbm, ⟨60, _⟩ => ⟨S_, .f32⟩
  | .hbm, ⟨61, _⟩ => ⟨S50000x1, .f32⟩
  | .hbm, ⟨62, _⟩ => ⟨S640000x1, .i32⟩
  | .hbm, ⟨63, _⟩ => ⟨S50000x1, .f32⟩
  | .hbm, ⟨64, _⟩ => ⟨S_, .f32⟩
  | .hbm, ⟨65, _⟩ => ⟨S50000x1, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S640000x1 : S_.BroadcastsInDim S640000x1 (![] : Fin 0 → Fin S640000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000x1_S640000x1_S640000x1_1_0_0_1_wf : ScatterDims.WF S50000x1 S640000x1 S640000x1 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000x1_S640000x1_S640000x1_1_0_0_1 : ScatterDims S50000x1 S640000x1 S640000x1 where
  updateWindowDims := [1]
  insertedWindowDims := [0]
  scatterDimsToOperandDims := [0]
  indexVectorDim := 1
  wf := scatter_S50000x1_S640000x1_S640000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The kernel program's run with its result named.

  From any memory with zero counters, every weakly fair execution of the program on the TensorCores terminates,
  nothing faulting, and in every final state the result array holds what the second pipeline's write-backs leave
  in its output window (the fold of that window's blocks over all grid points, from the contents the pipeline is
  entered with), while every argument array is as launched.  The run is cut into its four segments (two stretches
  of host operations, two pipelines); the thread state after the last segment holds every unscoped buffer at the
  last boundary's contents, and the final memory is read against it.
-/
import proofs.«170039_j37160057045597_2_alg».proof.Proof.Gen.KernelIdeal.Frame

-- terms over the long axes' extents are deep
set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second pipeline's output window (window 5) is the result array. -/
theorem arrRef_out : Pipeline.arrRef spec1 5 = main_v39 := rfl

/-- The last boundary's contents at the result array: what the second pipeline's write-backs leave in window 5. -/
theorem W4_main_v39 (c : Dev nD) :
    W4 m ρ c (Proc.devRef .tc main_v39) = (dat1 (V3 m ρ) c).arrAt 5 cfg1.N :=
  W4_arr m ρ c 5

set_option backward.isDefEq.respectTransparency.types false in
/-- THE RUN: at the compiled mesh, from any memory with zero counters, every weakly fair execution of the program on
    the TensorCores terminates, nothing faulting, and every final state has the result array at what the second
    pipeline leaves in its output window and the argument arrays as launched: the launch over the four segments,
    the last thread state read against the final state, the result by `W4_main_v39` and each argument by its
    walk back through the boundaries to the launch memory. -/
theorem run : θ_run defs (onTc (τ := τ) (main (F := F))) ⟨m, fun _ => 0, ρ⟩ (fun r => ∀ c : Dev nD,
      r.2.mem ((c.tc : Thread nD τ).loc main_v39) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v39 (by decide))).trans (W4_main_v39 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.LibSegment.lean ====
/-
  ROW GATHER AND SEGMENT SUM READ AT AN INDEX.

  With start indices `idx` of shape `[E, 1]` (one row number per edge):
  the row gather `x[idx]` of a table `x : [N, C]` has at `(e, j)` the entry of `x` at row `idx[e, 0]` (read signed, clamped
  into `[0, N − 1]`) and column `j`; the segment sum of updates `[E, C]` into an operand `[N, C]` adds to entry `(n, j)`
  every update `(e, j)` whose row number `idx[e, 0]` (read signed, NOT clamped: a row number outside `[0, N)` drops the
  update) is `n`; likewise for a rank-1 operand `[N]` and updates `[E]`. The same function `rowOf` names the row read
  for every width `C`, and the same function `segOf` names the row added to for every width `C` and for rank 1, so sums
  over the edges of one segment can be compared across widths.
-/
import Idealize.ShloMosaic.PureOps.Ideal
import Idealize.ShloMosaic.Lib.ValueIdx

noncomputable section

open scoped BigOperators

namespace Cert.LibSegment

open Idealize.ShloMosaic Idealize.ShloMosaic.ValueIdx

/-! ## Coordinates of a rank-2 index, typed by the extents -/

/-- The first coordinate of a rank-2 index, as an element of `Fin n0`. -/
abbrev fst2 {n0 n1 : Nat} (i : (⟨2, ![n0, n1]⟩ : Shape).Idx) : Fin n0 := i 0
/-- The second coordinate of a rank-2 index, as an element of `Fin n1`. -/
abbrev snd2 {n0 n1 : Nat} (i : (⟨2, ![n0, n1]⟩ : Shape).Idx) : Fin n1 := i 1
/-- The coordinate of a rank-1 index, as an element of `Fin n`. -/
abbrev fst1 {n : Nat} (i : (⟨1, ![n]⟩ : Shape).Idx) : Fin n := i 0

/-! ## The row a start index names -/

/-- The row of an `N`-row table that edge `e` reads: its start index `idx[e, 0]` as a signed integer, clamped into
    `[0, N − 1]` (a negative index reads row `0`, one past the end reads the last row). -/
def rowOf {N E w : Nat} (hN : 0 < N) (idx : IVec ⟨2, ![E, 1]⟩ w) (e : Fin E) : Fin N :=
  ⟨min (idx (ix2 e (0 : Fin 1))).toInt.toNat (N - 1), by omega⟩

/-- The row of an `N`-row operand that the update of edge `e` is added to: its start index `idx[e, 0]` as a signed
    integer when that lies in `[0, N)`; `none` when it does not (the update is dropped, not clamped). -/
def segOf {N E w : Nat} (idx : IVec ⟨2, ![E, 1]⟩ w) (e : Fin E) : Option (Fin N) :=
  if h : 0 ≤ (idx (ix2 e (0 : Fin 1))).toInt ∧ (idx (ix2 e (0 : Fin 1))).toInt < N then
    some ⟨(idx (ix2 e (0 : Fin 1))).toInt.toNat, by omega⟩
  else none

/-- Edge `e` is added to row `n` exactly when its start index, read signed, IS `n`. -/
theorem segOf_eq_some_iff {N E w : Nat} (idx : IVec ⟨2, ![E, 1]⟩ w) (e : Fin E) (n : Fin N) :
    segOf idx e = some n ↔ (idx (ix2 e (0 : Fin 1))).toInt = (n.val : Int) := by
  unfold segOf
  have hn := n.isLt
  split
  · rename_i h
    rw [Option.some.injEq, Fin.ext_iff]
    show (idx (ix2 e (0 : Fin 1))).toInt.toNat = n.val ↔ _
    omega
  · rename_i h
    constructor
    · intro h2; exact absurd h2 (by simp)
    · intro h2; exact absurd ⟨by omega, by omega⟩ h

/-- An edge whose start index lies in `[0, N)` reads the row it is added to: the clamp does nothing there. -/
theorem rowOf_eq_of_segOf {N E w : Nat} (hN : 0 < N) (idx : IVec ⟨2, ![E, 1]⟩ w) (e : Fin E) (n : Fin N)
    (h : segOf idx e = some n) : rowOf hN idx e = n := by
  have h2 := (segOf_eq_some_iff idx e n).mp h
  have hn := n.isLt
  refine Fin.ext ?_
  show min (idx (ix2 e (0 : Fin 1))).toInt.toNat (N - 1) = n.val
  omega

/-! ## The row gather -/

section Rows
variable {α : Type}

/-- The dimension numbers of the row gather: operand `[N, C]`, start indices `[E, 1]`, result `[E, C]`; axis 0 of the
    operand is collapsed and indexed, axis 1 is copied whole. Their conditions `wf` are decided on literal shapes. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT AN INDEX `y = (e, j)`: the table at row `rowOf idx e`, column `j`. On axis 0 the operand
    coordinate is the clamped start index alone (the axis is collapsed: no offset); on axis 1 it is the offset `j`
    alone (the axis is not indexed: start `0`). -/
theorem gather_rows_apply_idx {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowsDims N E C wf) x idx y = x (ix2 (rowOf hN idx (fst2 y)) (snd2 y)) := by
  unfold Host.gather
  congr 1
  funext a
  refine Fin.ext ?_
  match a with
  | ⟨0, _⟩ =>
    show (rowsDims N E C wf).start y idx 0 + (rowsDims N E C wf).batchCoord y 0 + (rowsDims N E C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx y ⟨List.idxOf (0 : Fin 2) (rowsDims N E C wf).startIndexMap,
        List.idxOf_lt_length_iff.2 (List.mem_singleton.mpr rfl)⟩ = ix2 (fst2 y) (0 : Fin 1) := by
      funext b; refine Fin.ext ?_
      match b with
      | ⟨0, _⟩ => rfl
      | ⟨1, _⟩ => rfl
    rw [hsi]
    rfl
  | ⟨1, _⟩ =>
    show (rowsDims N E C wf).start y idx 1 + (rowsDims N E C wf).batchCoord y 1 + (rowsDims N E C wf).offCoord y 1 = (y 1).val
    rw [GatherDims.batchCoord_eq_zero _ _ _ List.not_mem_nil]
    unfold GatherDims.start
    rw [dif_neg (show (1 : Fin 2) ∉ (rowsDims N E C wf).startIndexMap from
      fun h => absurd (List.mem_singleton.mp h) (by decide : ¬ ((1 : Fin 2) = 0)))]
    simp only [Nat.add_zero, Nat.zero_add]
    unfold GatherDims.offCoord
    rw [dif_pos (show (1 : Fin 2) ∈ (rowsDims N E C wf).sKept from
      (GatherDims.mem_sKept _ _).mpr
        ⟨fun h => absurd (List.mem_singleton.mp h) (by decide : ¬ ((1 : Fin 2) = 0)), List.not_mem_nil⟩)]
    rfl

/-- The row gather at `(e, j)`: the table at row `rowOf idx e`, column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowsDims N E C wf) x idx (ix2 e j) = x (ix2 (rowOf hN idx e) j) :=
  gather_rows_apply_idx hN wf x idx (ix2 e j)

end Rows

/-! ## The segment sum into a rank-2 operand -/

section Seg

/-- The dimension numbers of the segment sum into `[N, C]`: scatter indices `[E, 1]`, updates `[E, C]`; axis 0 of the
    operand is the indexed one (an inserted window axis), axis 1 of the updates is the window, copied onto axis 1 of
    the operand. Their conditions `wf` are decided on literal shapes. -/
abbrev segDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (u : (⟨2, ![E, C]⟩ : Shape).Idx)

/-- On axis 0 the window of update `(e, j)` starts at the start index `idx[e, 0]`, read signed. -/
theorem seg_start0 : (segDims N E C wf).start u idx 0 = (idx (ix2 (fst2 u) (0 : Fin 1))).toInt := by
  unfold ScatterDims.start
  rw [dif_pos (show (0 : Fin 2) ∈ (segDims N E C wf).scatterDimsToOperandDims from List.mem_singleton.mpr rfl)]
  have hsi : (segDims N E C wf).siIdx u ⟨List.idxOf (0 : Fin 2) (segDims N E C wf).scatterDimsToOperandDims,
      List.idxOf_lt_length_iff.2 (List.mem_singleton.mpr rfl)⟩ = ix2 (fst2 u) (0 : Fin 1) := by
    funext b; refine Fin.ext ?_
    match b with
    | ⟨0, _⟩ => rfl
    | ⟨1, _⟩ => rfl
  rw [hsi]

/-- Axis 1 is not indexed: the window starts at `0` there. -/
theorem seg_start1 : (segDims N E C wf).start u idx 1 = 0 := by
  unfold ScatterDims.start
  rw [dif_neg (show (1 : Fin 2) ∉ (segDims N E C wf).scatterDimsToOperandDims from
    fun h => absurd (List.mem_singleton.mp h) (by decide : ¬ ((1 : Fin 2) = 0)))]

/-- Axis 0 is an inserted window axis: no window coordinate there. -/
theorem seg_window0 : (segDims N E C wf).window u 0 = 0 := by
  unfold ScatterDims.window
  rw [dif_neg (show (0 : Fin 2) ∉ (segDims N E C wf).sKept from fun h =>
    (List.mem_filter.mp h).2 |> fun h2 => absurd (List.mem_singleton.mpr rfl) (of_decide_eq_true h2))]

/-- On axis 1 the window coordinate of update `(e, j)` is `j`. -/
theorem seg_window1 : (segDims N E C wf).window u 1 = (u 1).val := by
  unfold ScatterDims.window
  rw [dif_pos (show (1 : Fin 2) ∈ (segDims N E C wf).sKept from
    List.mem_filter.mpr ⟨List.mem_finRange _, decide_eq_true
      (fun h => absurd (List.mem_singleton.mp h) (by decide : ¬ ((1 : Fin 2) = 0)))⟩)]
  rfl

/-- WHERE AN UPDATE LANDS: update `u = (e, k)` lands at `(n, j)` exactly when edge `e` is added to row `n` and
    `k = j`. -/
theorem seg_resultIdx?_eq_some_iff (n : Fin N) (j : Fin C) :
    (segDims N E C wf).resultIdx? u idx = some (ix2 n j) ↔ segOf idx (fst2 u) = some n ∧ snd2 u = j := by
  have hu1 : (u 1).val < C := idx2_lt1 u
  have hn := n.isLt
  have hj := j.isLt
  rw [segOf_eq_some_iff]
  unfold ScatterDims.resultIdx?
  split
  · rename_i h
    rw [Option.some.injEq]
    constructor
    · intro heq
      have e0 : ((segDims N E C wf).start u idx 0 + (segDims N E C wf).window u 0).toNat = n.val :=
        congrArg (fun f : (⟨2, ![N, C]⟩ : Shape).Idx => (f 0).val) heq
      have e1 : ((segDims N E C wf).start u idx 1 + (segDims N E C wf).window u 1).toNat = j.val :=
        congrArg (fun f : (⟨2, ![N, C]⟩ : Shape).Idx => (f 1).val) heq
      have h0 := h 0
      rw [seg_start0, seg_window0] at e0 h0
      rw [seg_start1, seg_window1] at e1
      refine ⟨by omega, Fin.ext ?_⟩
      show (u 1).val = j.val
      omega
    · rintro ⟨e0, e1⟩
      have e1v : (u 1).val = j.val := congrArg Fin.val e1
      funext a; refine Fin.ext ?_
      match a with
      | ⟨0, _⟩ =>
        show ((segDims N E C wf).start u idx 0 + (segDims N E C wf).window u 0).toNat = n.val
        rw [seg_start0, seg_window0]; omega
      | ⟨1, _⟩ =>
        show ((segDims N E C wf).start u idx 1 + (segDims N E C wf).window u 1).toNat = j.val
        rw [seg_start1, seg_window1]; omega
  · rename_i h
    constructor
    · intro h2; exact absurd h2 (by simp)
    · rintro ⟨e0, _⟩
      refine absurd (fun a => ?_) h
      match a with
      | ⟨0, _⟩ =>
        show 0 ≤ (segDims N E C wf).start u idx 0 + (segDims N E C wf).window u 0 ∧
          (segDims N E C wf).start u idx 0 + (segDims N E C wf).window u 0 < (N : Int)
        rw [seg_start0, seg_window0]; omega
      | ⟨1, _⟩ =>
        show 0 ≤ (segDims N E C wf).start u idx 1 + (segDims N E C wf).window u 1 ∧
          (segDims N E C wf).start u idx 1 + (segDims N E C wf).window u 1 < (C : Int)
        rw [seg_start1, seg_window1]; omega

/-- THE SEGMENT SUM READ AT `(n, j)`: the operand's entry plus the updates `(e, j)` of the edges `e` added to row
    `n`. The updates that land at `(n, j)` are in bijection with those edges, by `(e, j) ↦ e`. -/
theorem scatterAdd_seg_apply (x : (⟨2, ![N, C]⟩ : Shape).Idx → EReal) (upd : (⟨2, ![E, C]⟩ : Shape).Idx → EReal)
    (n : Fin N) (j : Fin C) :
    Ideal.hostScatterAdd (segDims N E C wf) x idx upd (ix2 n j) =
      x (ix2 n j) + ∑ e ∈ Finset.univ.filter (fun e : Fin E => segOf (N := N) idx e = some n), upd (ix2 e j) := by
  unfold Ideal.hostScatterAdd
  congr 1
  refine Finset.sum_nbij' (fun u => fst2 u) (fun e => ix2 e j) ?_ ?_ ?_ ?_ ?_
  · intro u hu
    rw [Finset.mem_filter] at hu ⊢
    exact ⟨Finset.mem_univ _, ((seg_resultIdx?_eq_some_iff wf idx u n j).mp hu.2).1⟩
  · intro e he
    rw [Finset.mem_filter] at he ⊢
    exact ⟨Finset.mem_univ _, (seg_resultIdx?_eq_some_iff wf idx (ix2 e j) n j).mpr ⟨he.2, rfl⟩⟩
  · intro u hu
    rw [Finset.mem_filter] at hu
    have h1 : snd2 u = j := ((seg_resultIdx?_eq_some_iff wf idx u n j).mp hu.2).2
    rw [← h1]; exact (eq_ix2 u).symm
  · intro e _; rfl
  · intro u hu
    rw [Finset.mem_filter] at hu
    have h1 : snd2 u = j := ((seg_resultIdx?_eq_some_iff wf idx u n j).mp hu.2).2
    rw [← h1]; exact congrArg upd (eq_ix2 u)

/-- The segment sum at an arbitrary index `i = (n, j)` of the operand. -/
theorem scatterAdd_seg_apply_idx (x : (⟨2, ![N, C]⟩ : Shape).Idx → EReal) (upd : (⟨2, ![E, C]⟩ : Shape).Idx → EReal)
    (i : (⟨2, ![N, C]⟩ : Shape).Idx) :
    Ideal.hostScatterAdd (segDims N E C wf) x idx upd i =
      x i + ∑ e ∈ Finset.univ.filter (fun e : Fin E => segOf (N := N) idx e = some (fst2 i)), upd (ix2 e (snd2 i)) := by
  have hi : i = ix2 (fst2 i) (snd2 i) := eq_ix2 i
  conv_lhs => rw [hi]
  rw [scatterAdd_seg_apply]
  exact congrArg (fun t => x t + _) hi.symm

/-- The same reading of the host operation `Host.scatterAdd` at the ideal instance, whatever the float format. -/
theorem host_scatterAdd_seg_apply {φ : FTy} (x : FVec Ideal ⟨2, ![N, C]⟩ φ) (upd : FVec Ideal ⟨2, ![E, C]⟩ φ)
    (n : Fin N) (j : Fin C) :
    Host.scatterAdd (F := Ideal) (segDims N E C wf) x idx upd (ix2 n j) =
      x (ix2 n j) + ∑ e ∈ Finset.univ.filter (fun e : Fin E => segOf (N := N) idx e = some n), upd (ix2 e j) :=
  scatterAdd_seg_apply wf idx x upd n j

/-- `Host.scatterAdd` at the ideal instance, at an arbitrary index of the operand. -/
theorem host_scatterAdd_seg_apply_idx {φ : FTy} (x : FVec Ideal ⟨2, ![N, C]⟩ φ) (upd : FVec Ideal ⟨2, ![E, C]⟩ φ)
    (i : (⟨2, ![N, C]⟩ : Shape).Idx) :
    Host.scatterAdd (F := Ideal) (segDims N E C wf) x idx upd i =
      x i + ∑ e ∈ Finset.univ.filter (fun e : Fin E => segOf (N := N) idx e = some (fst2 i)), upd (ix2 e (snd2 i)) :=
  scatterAdd_seg_apply_idx wf idx x upd i

end Seg

/-! ## The segment sum into a rank-1 operand -/

section Seg1

/-- The dimension numbers of the segment sum into `[N]`: scatter indices `[E, 1]`, updates `[E]`; the operand's one
    axis is the indexed one (an inserted window axis) and the updates have no window axis. Their conditions `wf` are
    decided on literal shapes. -/
abbrev segDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (u : (⟨1, ![E]⟩ : Shape).Idx)

/-- The window of update `e` starts at the start index `idx[e, 0]`, read signed. -/
theorem seg1_start0 : (segDims1 N E wf).start u idx 0 = (idx (ix2 (fst1 u) (0 : Fin 1))).toInt := by
  unfold ScatterDims.start
  rw [dif_pos (show (0 : Fin 1) ∈ (segDims1 N E wf).scatterDimsToOperandDims from List.mem_singleton.mpr rfl)]
  have hsi : (segDims1 N E wf).siIdx u ⟨List.idxOf (0 : Fin 1) (segDims1 N E wf).scatterDimsToOperandDims,
      List.idxOf_lt_length_iff.2 (List.mem_singleton.mpr rfl)⟩ = ix2 (fst1 u) (0 : Fin 1) := by
    funext b; refine Fin.ext ?_
    match b with
    | ⟨0, _⟩ => rfl
    | ⟨1, _⟩ => rfl
  rw [hsi]

/-- The operand's axis is an inserted window axis: no window coordinate there. -/
theorem seg1_window0 : (segDims1 N E wf).window u 0 = 0 := by
  unfold ScatterDims.window
  rw [dif_neg (show (0 : Fin 1) ∉ (segDims1 N E wf).sKept from fun h =>
    (List.mem_filter.mp h).2 |> fun h2 => absurd (List.mem_singleton.mpr rfl) (of_decide_eq_true h2))]

/-- WHERE AN UPDATE LANDS: update `e` lands at `n` exactly when edge `e` is added to row `n`. -/
theorem seg1_resultIdx?_eq_some_iff (n : Fin N) :
    (segDims1 N E wf).resultIdx? u idx = some (ix1 n) ↔ segOf idx (fst1 u) = some n := by
  have hn := n.isLt
  rw [segOf_eq_some_iff]
  unfold ScatterDims.resultIdx?
  split
  · rename_i h
    rw [Option.some.injEq]
    constructor
    · intro heq
      have e0 : ((segDims1 N E wf).start u idx 0 + (segDims1 N E wf).window u 0).toNat = n.val :=
        congrArg (fun f : (⟨1, ![N]⟩ : Shape).Idx => (f 0).val) heq
      have h0 := h 0
      rw [seg1_start0, seg1_window0] at e0 h0
      omega
    · intro e0
      funext a; refine Fin.ext ?_
      match a with
      | ⟨0, _⟩ =>
        show ((segDims1 N E wf).start u idx 0 + (segDims1 N E wf).window u 0).toNat = n.val
        rw [seg1_start0, seg1_window0]; omega
  · rename_i h
    constructor
    · intro h2; exact absurd h2 (by simp)
    · intro e0
      refine absurd (fun a => ?_) h
      match a with
      | ⟨0, _⟩ =>
        show 0 ≤ (segDims1 N E wf).start u idx 0 + (segDims1 N E wf).window u 0 ∧
          (segDims1 N E wf).start u idx 0 + (segDims1 N E wf).window u 0 < (N : Int)
        rw [seg1_start0, seg1_window0]; omega

/-- THE RANK-1 SEGMENT SUM READ AT `n`: the operand's entry plus the updates of the edges added to row `n` — the
    same set of edges as for a rank-2 operand of any width. -/
theorem scatterAdd_seg1_apply (x : (⟨1, ![N]⟩ : Shape).Idx → EReal) (upd : (⟨1, ![E]⟩ : Shape).Idx → EReal) (n : Fin N) :
    Ideal.hostScatterAdd (segDims1 N E wf) x idx upd (ix1 n) =
      x (ix1 n) + ∑ e ∈ Finset.univ.filter (fun e : Fin E => segOf (N := N) idx e = some n), upd (ix1 e) := by
  unfold Ideal.hostScatterAdd
  congr 1
  refine Finset.sum_nbij' (fun u => fst1 u) (fun e => ix1 e) ?_ ?_ ?_ ?_ ?_
  · intro u hu
    rw [Finset.mem_filter] at hu ⊢
    exact ⟨Finset.mem_univ _, (seg1_resultIdx?_eq_some_iff wf idx u n).mp hu.2⟩
  · intro e he
    rw [Finset.mem_filter] at he ⊢
    exact ⟨Finset.mem_univ _, (seg1_resultIdx?_eq_some_iff wf idx (ix1 e) n).mpr he.2⟩
  · intro u _; exact (eq_ix1 u).symm
  · intro e _; rfl
  · intro u _; exact congrArg upd (eq_ix1 u)

/-- The rank-1 segment sum at an arbitrary index of the operand. -/
theorem scatterAdd_seg1_apply_idx (x : (⟨1, ![N]⟩ : Shape).Idx → EReal) (upd : (⟨1, ![E]⟩ : Shape).Idx → EReal)
    (i : (⟨1, ![N]⟩ : Shape).Idx) :
    Ideal.hostScatterAdd (segDims1 N E wf) x idx upd i =
      x i + ∑ e ∈ Finset.univ.filter (fun e : Fin E => segOf (N := N) idx e = some (fst1 i)), upd (ix1 e) := by
  have hi : i = ix1 (fst1 i) := eq_ix1 i
  conv_lhs => rw [hi]
  rw [scatterAdd_seg1_apply]
  exact congrArg (fun t => x t + _) hi.symm

/-- The same reading of the host operation `Host.scatterAdd` at the ideal instance, whatever the float format. -/
theorem host_scatterAdd_seg1_apply {φ : FTy} (x : FVec Ideal ⟨1, ![N]⟩ φ) (upd : FVec Ideal ⟨1, ![E]⟩ φ) (n : Fin N) :
    Host.scatterAdd (F := Ideal) (segDims1 N E wf) x idx upd (ix1 n) =
      x (ix1 n) + ∑ e ∈ Finset.univ.filter (fun e : Fin E => segOf (N := N) idx e = some n), upd (ix1 e) :=
  scatterAdd_seg1_apply wf idx x upd n

/-- `Host.scatterAdd` at the ideal instance, rank 1, at an arbitrary index of the operand. -/
theorem host_scatterAdd_seg1_apply_idx {φ : FTy} (x : FVec Ideal ⟨1, ![N]⟩ φ) (upd : FVec Ideal ⟨1, ![E]⟩ φ)
    (i : (⟨1, ![N]⟩ : Shape).Idx) :
    Host.scatterAdd (F := Ideal) (segDims1 N E wf) x idx upd i =
      x i + ∑ e ∈ Finset.univ.filter (fun e : Fin E => segOf (N := N) idx e = some (fst1 i)), upd (ix1 e) :=
  scatterAdd_seg1_apply_idx wf idx x upd i

end Seg1

end Cert.LibSegment

end
-- ==== Proof.Spec.lean ====
/-
  Two layers of mean aggregation over a graph, written index by index.

  A graph on 50000 nodes has 640000 edges; edge `e` carries a source row `row e` (the row of a table it reads) and
  belongs to the segment `seg n` of the node `n` it points to (or to none).  With node features `x` (width 128):

    cnt n    = z + Σ_{e ∈ seg n} o                         (the in-degree, `z` and `o` the patterns of 0 and 1)
    agg n k  = z + Σ_{e ∈ seg n} x (row e) k                (the sum of the neighbours' features)
    h n k'   = max (mean(n,·)·W1l(·,k') + x(n,·)·W1r(·,k') + b1 k') z      (first layer, then relu)
    out n j  = mean₂(n,·)·W2l(·,j) + b2 j + h(n,·)·W2r(·,j)               (second layer)

  where the mean divides by `max (cnt n) o`.  Two arrangements of this computation are stated:
  `outK` multiplies the segment sums by the reciprocal `o / max (cnt n) o`, adds the bias last in the first
  layer, and in the second layer sums over the segment the rows ALREADY multiplied by `W2l`; `outR` divides the
  segment sums, adds the bias in the middle, and multiplies by `W2l` after the mean.
-/
import Idealize.ShloMosaic.PureOps.Ideal
import Idealize.ShloMosaic.Lib.ValueIdx
import proofs.«170039_j37160057045597_2_alg».proof.Proof.LibSegment

noncomputable section

open scoped BigOperators

namespace Cert.Sage

open Idealize.ShloMosaic Idealize.ShloMosaic.ValueIdx Cert.LibSegment

/-- Indices of a matrix with literal extents. -/
abbrev Ix2 (a b : Nat) : Type := (⟨2, ![a, b]⟩ : Shape).Idx
/-- Indices of a vector with a literal extent. -/
abbrev Ix1 (a : Nat) : Type := (⟨1, ![a]⟩ : Shape).Idx

section
variable (src dst : IVec ⟨2, ![640000, 1]⟩ 32)
variable (x : Ix2 50000 128 → EReal) (W1l : Ix2 128 128 → EReal) (b1 : Ix1 128 → EReal) (W1r : Ix2 128 128 → EReal)
  (W2l : Ix2 128 64 → EReal) (b2 : Ix1 64 → EReal) (W2r : Ix2 128 64 → EReal) (z o : EReal)

/-- The edges pointing to node `n`. -/
def seg (n : Fin 50000) : Finset (Fin 640000) :=
  Finset.univ.filter (fun e : Fin 640000 => segOf (N := 50000) dst e = some n)

/-- The table row edge `e` reads. -/
def row (e : Fin 640000) : Fin 50000 := rowOf (N := 50000) (by decide) src e

/-- The in-degree of node `n`, counted from `z` in steps of `o`. -/
def cnt (n : Fin 50000) : EReal := z + ∑ _e ∈ seg dst n, o

/-- The divisor of the mean: the in-degree, at least `o`. -/
def den (n : Fin 50000) : EReal := max (cnt dst z o n) o

/-- The sum of the features of the neighbours of `n`, column `k`. -/
def agg (n : Fin 50000) (k : Fin 128) : EReal := z + ∑ e ∈ seg dst n, x (ix2 (row src e) k)

/-! ### The first arrangement: multiply by the reciprocal, project before aggregating -/

/-- The reciprocal of the divisor. -/
def inv (n : Fin 50000) : EReal := Ideal.div o (den dst z o n)

/-- First layer: mean by the reciprocal, the two products added first and the bias last, then relu. -/
def hK (n : Fin 50000) (k' : Fin 128) : EReal :=
  max (((∑ k : Fin 128, (agg src dst x z n k * inv dst z o n) * W1l (ix2 k k'))
        + ∑ k : Fin 128, x (ix2 n k) * W1r (ix2 k k')) + b1 (ix1 k')) z

/-- The first layer's rows multiplied by `W2l`. -/
def pK (n : Fin 50000) (j : Fin 64) : EReal :=
  ∑ k : Fin 128, hK src dst x W1l b1 W1r z o n k * W2l (ix2 k j)

/-- Second layer: the segment sum of the projected rows times the reciprocal, plus bias, plus the root term. -/
def outK (n : Fin 50000) (j : Fin 64) : EReal :=
  (((z + ∑ e ∈ seg dst n, pK src dst x W1l b1 W1r W2l z o (row src e) j) * inv dst z o n) + b2 (ix1 j))
    + ∑ k : Fin 128, hK src dst x W1l b1 W1r z o n k * W2r (ix2 k j)

/-! ### The second arrangement: divide, aggregate before projecting -/

/-- First layer: mean by division, bias added between the two products, then relu. -/
def hR (n : Fin 50000) (k' : Fin 128) : EReal :=
  max (((∑ k : Fin 128, Ideal.div (agg src dst x z n k) (den dst z o n) * W1l (ix2 k k')) + b1 (ix1 k'))
        + ∑ k : Fin 128, x (ix2 n k) * W1r (ix2 k k')) z

/-- The sum of the first layer's rows over the neighbours of `n`. -/
def agg2R (n : Fin 50000) (k : Fin 128) : EReal :=
  z + ∑ e ∈ seg dst n, hR src dst x W1l b1 W1r z o (row src e) k

/-- Second layer: the mean of the neighbours' rows times `W2l`, plus bias, plus the root term. -/
def outR (n : Fin 50000) (j : Fin 64) : EReal :=
  ((∑ k : Fin 128, Ideal.div (agg2R src dst x W1l b1 W1r z o n k) (den dst z o n) * W2l (ix2 k j)) + b2 (ix1 j))
    + ∑ k : Fin 128, hR src dst x W1l b1 W1r z o n k * W2r (ix2 k j)

end

/-- An extended real that is a real number. -/
def Fin' (a : EReal) : Prop := a ≠ ⊤ ∧ a ≠ ⊥

end Cert.Sage

end
-- ==== Proof.KDots.lean ====
/-
  A block matrix product read at an index.

  A `[2000, 128]` block times a `[128, C]` matrix into a zero accumulator (C = 128 or 64) has, at row `p` and
  column `q`, the sum over `k : Fin 128` of the block's `(p, k)` entry times the matrix's `(k, q)` entry: the
  contraction index of the dot's dimension numbers is re-indexed by `Fin 128`, the left operand is read at
  `(p, k)` and the right at `(k, q)`.
-/
import proofs.«170039_j37160057045597_2_alg».proof.Proof.Gen.KernelIdeal
import Idealize.ShloMosaic.Lib.ValueIdx
import Idealize.ShloMosaic.PureOps.Ideal.Laws

noncomputable section

open scoped BigOperators

namespace Cert.KernelIdeal.Dots

open Cert.KernelIdeal Idealize.ShloMosaic Idealize.ShloMosaic.ValueIdx

/-! ### The 128-column product -/

abbrev D128 := dot_S2000x128_S128x128_S2000x128_1_0_0_1_n_n

theorem lhs128_0 (i : S2000x128.Idx) (q : D128.contr.Idx) : (D128.lhsIdx i q 0).val = (i 0).val := by
  unfold DotDims.lhsIdx
  rw [dif_neg (show ¬(0 : Fin S2000x128.rank) ∈ D128.lhsBatch by decide),
    dif_pos (show (0 : Fin S2000x128.rank) ∈ D128.lhsNonContracting by decide)]
  rfl
theorem lhs128_1 (i : S2000x128.Idx) (q : D128.contr.Idx) : (D128.lhsIdx i q 1).val = (q ⟨0, by decide⟩).val :=
  D128.lhsIdx_val_of_single rfl i q
theorem rhs128_0 (i : S2000x128.Idx) (q : D128.contr.Idx) : (D128.rhsIdx i q 0).val = (q ⟨0, by decide⟩).val :=
  D128.rhsIdx_val_of_single rfl i q
theorem rhs128_1 (i : S2000x128.Idx) (q : D128.contr.Idx) : (D128.rhsIdx i q 1).val = (i 1).val := by
  unfold DotDims.rhsIdx
  rw [dif_neg (show ¬(1 : Fin S128x128.rank) ∈ D128.rhsBatch by decide),
    dif_pos (show (1 : Fin S128x128.rank) ∈ D128.rhsNonContracting by decide)]
  rfl

/-- The block product with 128 columns at `(p, q)`. -/
theorem matmul128_apply {φ₁ φ₂ : FTy} (l : FVec Ideal S2000x128 φ₁) (r : FVec Ideal S128x128 φ₂) (p : Fin 2000) (q : Fin 128) :
    matmul D128 none l r (constant S2000x128 .f32 0x00000000#32) (ix2 p q) = ∑ k : Fin 128, l (ix2 p k) * r (ix2 k q) := by
  simp only [matmul]
  rw [Ideal.matmul_constant_zero_apply, ← Equiv.sum_comp (contrEquiv1 D128 128 rfl rfl).symm]
  refine Finset.sum_congr rfl fun k _ => ?_
  have hk := contrEquiv1_symm_val D128 128 rfl rfl k
  have el : D128.lhsIdx (ix2 p q) ((contrEquiv1 D128 128 rfl rfl).symm k) = ix2 p k := funext fun a => Fin.ext (by
    match a with
    | ⟨0, _⟩ => exact lhs128_0 _ _
    | ⟨1, _⟩ => exact (lhs128_1 _ _).trans hk)
  have er : D128.rhsIdx (ix2 p q) ((contrEquiv1 D128 128 rfl rfl).symm k) = ix2 k q := funext fun a => Fin.ext (by
    match a with
    | ⟨0, _⟩ => exact (rhs128_0 _ _).trans hk
    | ⟨1, _⟩ => exact rhs128_1 _ _)
  rw [el, er]

/-! ### The 64-column product -/

abbrev D64 := dot_S2000x128_S128x64_S2000x64_1_0_0_1_n_n

theorem lhs64_0 (i : S2000x64.Idx) (q : D64.contr.Idx) : (D64.lhsIdx i q 0).val = (i 0).val := by
  unfold DotDims.lhsIdx
  rw [dif_neg (show ¬(0 : Fin S2000x128.rank) ∈ D64.lhsBatch by decide),
    dif_pos (show (0 : Fin S2000x128.rank) ∈ D64.lhsNonContracting by decide)]
  rfl
theorem lhs64_1 (i : S2000x64.Idx) (q : D64.contr.Idx) : (D64.lhsIdx i q 1).val = (q ⟨0, by decide⟩).val :=
  D64.lhsIdx_val_of_single rfl i q
theorem rhs64_0 (i : S2000x64.Idx) (q : D64.contr.Idx) : (D64.rhsIdx i q 0).val = (q ⟨0, by decide⟩).val :=
  D64.rhsIdx_val_of_single rfl i q
theorem rhs64_1 (i : S2000x64.Idx) (q : D64.contr.Idx) : (D64.rhsIdx i q 1).val = (i 1).val := by
  unfold DotDims.rhsIdx
  rw [dif_neg (show ¬(1 : Fin S128x64.rank) ∈ D64.rhsBatch by decide),
    dif_pos (show (1 : Fin S128x64.rank) ∈ D64.rhsNonContracting by decide)]
  rfl

/-- The block product with 64 columns at `(p, q)`. -/
theorem matmul64_apply {φ₁ φ₂ : FTy} (l : FVec Ideal S2000x128 φ₁) (r : FVec Ideal S128x64 φ₂) (p : Fin 2000) (q : Fin 64) :
    matmul D64 none l r (constant S2000x64 .f32 0x00000000#32) (ix2 p q) = ∑ k : Fin 128, l (ix2 p k) * r (ix2 k q) := by
  simp only [matmul]
  rw [Ideal.matmul_constant_zero_apply, ← Equiv.sum_comp (contrEquiv1 D64 128 rfl rfl).symm]
  refine Finset.sum_congr rfl fun k _ => ?_
  have hk := contrEquiv1_symm_val D64 128 rfl rfl k
  have el : D64.lhsIdx (ix2 p q) ((contrEquiv1 D64 128 rfl rfl).symm k) = ix2 p k := funext fun a => Fin.ext (by
    match a with
    | ⟨0, _⟩ => exact lhs64_0 _ _
    | ⟨1, _⟩ => exact (lhs64_1 _ _).trans hk)
  have er : D64.rhsIdx (ix2 p q) ((contrEquiv1 D64 128 rfl rfl).symm k) = ix2 k q := funext fun a => Fin.ext (by
    match a with
    | ⟨0, _⟩ => exact (rhs64_0 _ _).trans hk
    | ⟨1, _⟩ => exact rhs64_1 _ _)
  rw [el, er]

end Cert.KernelIdeal.Dots

end
-- ==== Proof.LibColumn.lean ====
/-
A column read through layout operations.

A column of `a` entries is stored either as a vector of shape `[a]` or as a matrix of shape
`[a, 1]`.  Reshaping between the two keeps entry `p` at row `p` (the only column being
column `0`), and stretching the `[a, 1]` matrix to `[a, b]` repeats entry `p` along row
`p`: the result at `(p, q)` is the column at `(p, 0)`.  The same holds when the stretch or the
added unit axis is written as a broadcast along named axes, and a vector of `b` entries placed
along the second axis of a `[1, b]` matrix keeps entry `q` at `(0, q)`.
-/
import Idealize.ShloMosaic.Lib.ValueLayout
import Idealize.ShloMosaic.Lib.Pipeline.Value
import Idealize.ShloMosaic.Lib.ValueIdx

namespace Cert.LibColumn

open Idealize.ShloMosaic Idealize.ShloMosaic.ValueIdx

variable {α : Type}

/-! ### Reshaping between a vector and a one-column matrix -/

/-- An `[a]` vector reshaped to `[a, 1]` reads, at `(p, u)`, the vector at `p`, whatever the
    unit coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` matrix reshaped to `[a]` reads, at `p`, the matrix at `(p, 0)`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-! ### Stretching a one-column matrix along its rows -/

/-- An `[a, 1]` matrix stretched to `[a, b]` reads, at `(p, q)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The same at an index not yet split into coordinates: the result at `j` is the column at
    `(j 0, 0)`. -/
theorem broadcastTo_a1_ab_apply' {a b : ℕ} (v : (⟨2, ![a, 1]⟩ : Shape).Idx → α)
    (h : (⟨2, ![a, 1]⟩ : Shape).Broadcasts ⟨2, ![a, b]⟩) (j : (⟨2, ![a, b]⟩ : Shape).Idx) :
    broadcastTo ⟨2, ![a, b]⟩ v h j = v (ix2 (j 0) (0 : Fin 1)) := by
  obtain ⟨p, q, rfl⟩ : ∃ (p : Fin a) (q : Fin b), j = ix2 p q := ⟨j 0, j 1, eq_ix2 j⟩
  exact broadcastTo_a1_ab_apply v h p q

/-! ### The same operations written as broadcasts along named axes -/

/-- An `[a]` vector broadcast into `[a, 1]` along axis `0` reads, at `(p, u)`, the vector at
    `p`. -/
theorem broadcastInDim_a_a1_apply {a : ℕ}
    (h : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` matrix broadcast into `[a, b]` along axes `0, 1` reads, at `(p, q)`, the column
    at `(p, 0)`. -/
theorem broadcastInDim_a1_ab_apply {a b : ℕ}
    (h : (⟨2, ![a, 1]⟩ : Shape).BroadcastsInDim ⟨2, ![a, b]⟩ ![0, 1])
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A `[b]` vector broadcast into `[1, b]` along axis `1` reads, at `(u, q)`, the vector at
    `q`. -/
theorem broadcastInDim_b_1b_apply {b : ℕ}
    (h : (⟨1, ![b]⟩ : Shape).BroadcastsInDim ⟨2, ![1, b]⟩ ![1])
    (x : (⟨1, ![b]⟩ : Shape).Idx → α) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

end Cert.LibColumn
-- ==== Proof.KRegion0.lean ====
/-
  The first layer, block by block and as whole arrays.

  At grid point `t` the first kernel reads rows `2000·t … 2000·t + 1999` of the neighbours' sums `a1` (width 128), of
  the features `xb` (width 128) and of the reciprocal in-degrees `iv` (one column), and the whole of the three weights
  `w1l`, `w1r`, `w2l` and of the bias row `b`; it writes the same rows of two results.  Entry `(p, q)` of the first is
  `max (Σ_k (a1(p,k)·iv(p))·w1l(k,q) + Σ_k xb(p,k)·w1r(k,q) + b(q)) 0`, and entry `(p, j)` of the second is row `p` of
  the first times column `j` of `w2l`: functions of the ROW `2000·t + p` of the arrays alone.  The 25 blocks tile the 50000
  rows, so after the last point each result array is that function of the arrays the kernel was started from, at every
  index; an array the kernel only reads is what it was.
-/
import proofs.«170039_j37160057045597_2_alg».proof.Proof.Gen.KernelIdeal.Frame
import proofs.«170039_j37160057045597_2_alg».proof.Proof.KDots
import proofs.«170039_j37160057045597_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Layer1

open Cert.KernelIdeal Cert.KernelIdeal.Gen Cert.KernelIdeal.Dots Idealize.ShloMosaic Idealize.ShloMosaic.TcCoe
open Idealize.ShloMosaic.ValueIdx Idealize.SL.Sem Cert.LibColumn
open Idealize.ShloMosaic.Pipeline (Dat)

theorem hz : (![0, 0] : Fin 2 → Nat) = fun _ => 0 := funext fun a => by fin_cases a <;> rfl

/-- One entry of the first layer, from the six arrays and the places it reads them at: the row of neighbours' sums
    scaled by the reciprocal in-degree times a column of `w1l`, plus the row of features times a column of `w1r`,
    plus the bias, then the maximum with zero. -/
def Hat {A X WL B WR I : Type} (a1 : A → EReal) (xb : X → EReal) (w1l : WL → EReal) (b : B → EReal) (w1r : WR → EReal)
    (iv : I → EReal) (ia : Fin 128 → A) (ii : I) (il : Fin 128 → WL) (ix : Fin 128 → X) (ir : Fin 128 → WR) (ib : B) : EReal :=
  max (((∑ k : Fin 128, (a1 (ia k) * iv ii) * w1l (il k)) + ∑ k : Fin 128, xb (ix k) * w1r (ir k)) + b ib)
    (Ideal.ofBits .f32 0x00000000#32)

/-- The first layer as one function of whole arrays: at `(n, k')` the maximum with zero of row `n` of the neighbours'
    sums scaled by the reciprocal in-degree of row `n` times column `k'` of `w1l`, plus row `n` of the features times
    column `k'` of `w1r`, plus the bias at `k'`. -/
def H (a1 : S50000x128.Idx → EReal) (xb : S50000x128.Idx → EReal) (w1l : S128x128.Idx → EReal) (b : S1x128.Idx → EReal)
    (w1r : S128x128.Idx → EReal) (iv : S50000x1.Idx → EReal) : S50000x128.Idx → EReal :=
  fun i => Hat a1 xb w1l b w1r iv (fun k => ix2 (⟨(i 0).val, (i 0).isLt⟩ : Fin 50000) k)
    (ix2 (⟨(i 0).val, (i 0).isLt⟩ : Fin 50000) (0 : Fin 1)) (fun k => ix2 k (⟨(i 1).val, (i 1).isLt⟩ : Fin 128))
    (fun k => ix2 (⟨(i 0).val, (i 0).isLt⟩ : Fin 50000) k) (fun k => ix2 k (⟨(i 1).val, (i 1).isLt⟩ : Fin 128))
    (ix2 (0 : Fin 1) (⟨(i 1).val, (i 1).isLt⟩ : Fin 128))

/-- The first layer's rows times `w2l` as one function of whole arrays: at `(n, j)` row `n` of the first layer times
    column `j` of `w2l`. -/
def P (a1 : S50000x128.Idx → EReal) (xb : S50000x128.Idx → EReal) (w1l : S128x128.Idx → EReal) (b : S1x128.Idx → EReal)
    (w1r : S128x128.Idx → EReal) (w2l : S128x64.Idx → EReal) (iv : S50000x1.Idx → EReal) : S50000x64.Idx → EReal :=
  fun i => ∑ k : Fin 128, H a1 xb w1l b w1r iv (ix2 (⟨(i 0).val, (i 0).isLt⟩ : Fin 50000) k)
    * w2l (ix2 k (⟨(i 1).val, (i 1).isLt⟩ : Fin 64))

/-- The first layer at a split index, written out. -/
theorem H_apply (a1 : S50000x128.Idx → EReal) (xb : S50000x128.Idx → EReal) (w1l : S128x128.Idx → EReal)
    (b : S1x128.Idx → EReal) (w1r : S128x128.Idx → EReal) (iv : S50000x1.Idx → EReal) (n : Fin 50000) (k' : Fin 128) :
    H a1 xb w1l b w1r iv (ix2 n k')
      = max (((∑ k : Fin 128, (a1 (ix2 n k) * iv (ix2 n (0 : Fin 1))) * w1l (ix2 k k'))
          + ∑ k : Fin 128, xb (ix2 n k) * w1r (ix2 k k')) + b (ix2 (0 : Fin 1) k')) (Ideal.ofBits .f32 0x00000000#32) := rfl

/-- The projected first layer at a split index, written out. -/
theorem P_apply (a1 : S50000x128.Idx → EReal) (xb : S50000x128.Idx → EReal) (w1l : S128x128.Idx → EReal)
    (b : S1x128.Idx → EReal) (w1r : S128x128.Idx → EReal) (w2l : S128x64.Idx → EReal) (iv : S50000x1.Idx → EReal)
    (n : Fin 50000) (j : Fin 64) :
    P a1 xb w1l b w1r w2l iv (ix2 n j) = ∑ k : Fin 128, H a1 xb w1l b w1r iv (ix2 n k) * w2l (ix2 k j) := rfl

/-! ## The body's two stored values at an index of the block -/

/-- The first stored value at `(p, q)` of the block. -/
theorem pay1_apply (v0 : Vec Ideal S2000x128 .f32) (v2 : Vec Ideal S2000x1 .f32) (v7 : Vec Ideal S2000x128 .bf16)
    (v9 : Vec Ideal S128x128 .f32) (v11 : Vec Ideal S128x128 .f32) (v16 : Vec Ideal S1x128 .f32) (p : Fin 2000) (q : Fin 128) :
    k0_pay1 v0 v2 v7 v9 v11 v16 (ix2 p q)
      = max (((∑ k : Fin 128, (v0 (ix2 p k) * v2 (ix2 p (0 : Fin 1))) * v9 (ix2 k q))
          + ∑ k : Fin 128, v7 (ix2 p k) * v11 (ix2 k q)) + v16 (ix2 (0 : Fin 1) q)) (Ideal.ofBits .f32 0x00000000#32) := by
  unfold k0_pay1
  simp only [shapeCast_self]
  rw [truncf_apply, maximumf_apply, addf_apply, addf_apply, matmul128_apply, matmul128_apply, broadcastTo_1b_ab_apply,
    broadcast_apply]
  simp only [truncf_apply, mulf_apply, broadcastTo_a1_ab_apply]
  rfl

/-- The same at an index not split into coordinates. -/
theorem pay1_apply' (v0 : Vec Ideal S2000x128 .f32) (v2 : Vec Ideal S2000x1 .f32) (v7 : Vec Ideal S2000x128 .bf16)
    (v9 : Vec Ideal S128x128 .f32) (v11 : Vec Ideal S128x128 .f32) (v16 : Vec Ideal S1x128 .f32) (y : S2000x128.Idx) :
    k0_pay1 v0 v2 v7 v9 v11 v16 y
      = Hat v0 v7 v9 v16 v11 v2 (fun k => ix2 (⟨(y 0).val, (y 0).isLt⟩ : Fin 2000) k)
          (ix2 (⟨(y 0).val, (y 0).isLt⟩ : Fin 2000) (0 : Fin 1)) (fun k => ix2 k (⟨(y 1).val, (y 1).isLt⟩ : Fin 128))
          (fun k => ix2 (⟨(y 0).val, (y 0).isLt⟩ : Fin 2000) k) (fun k => ix2 k (⟨(y 1).val, (y 1).isLt⟩ : Fin 128))
          (ix2 (0 : Fin 1) (⟨(y 1).val, (y 1).isLt⟩ : Fin 128)) := by
  obtain ⟨p, q, rfl⟩ : ∃ (p : Fin 2000) (q : Fin 128), y = ix2 p q := ⟨y 0, y 1, eq_ix2 y⟩
  exact pay1_apply v0 v2 v7 v9 v11 v16 p q

/-- The second stored value at `(p, j)` of the block: row `p` of the first times column `j` of the last weight. -/
theorem pay2_apply (v0 : Vec Ideal S2000x128 .f32) (v2 : Vec Ideal S2000x1 .f32) (v7 : Vec Ideal S2000x128 .bf16)
    (v9 : Vec Ideal S128x128 .f32) (v11 : Vec Ideal S128x128 .f32) (v16 : Vec Ideal S1x128 .f32) (v23 : Vec Ideal S128x64 .f32)
    (p : Fin 2000) (j : Fin 64) :
    k0_pay2 v0 v2 v7 v9 v11 v16 v23 (ix2 p j)
      = ∑ k : Fin 128, k0_pay1 v0 v2 v7 v9 v11 v16 (ix2 p k) * v23 (ix2 k j) := by
  unfold k0_pay2
  generalize k0_pay1 v0 v2 v7 v9 v11 v16 = h
  rw [truncf_apply, matmul64_apply]
  rfl

/-- The same at an index not split into coordinates. -/
theorem pay2_apply' (v0 : Vec Ideal S2000x128 .f32) (v2 : Vec Ideal S2000x1 .f32) (v7 : Vec Ideal S2000x128 .bf16)
    (v9 : Vec Ideal S128x128 .f32) (v11 : Vec Ideal S128x128 .f32) (v16 : Vec Ideal S1x128 .f32) (v23 : Vec Ideal S128x64 .f32)
    (y : S2000x64.Idx) :
    k0_pay2 v0 v2 v7 v9 v11 v16 v23 y
      = ∑ k : Fin 128, k0_pay1 v0 v2 v7 v9 v11 v16 (ix2 (⟨(y 0).val, (y 0).isLt⟩ : Fin 2000) k)
          * v23 (ix2 k (⟨(y 1).val, (y 1).isLt⟩ : Fin 64)) := by
  obtain ⟨p, j, rfl⟩ : ∃ (p : Fin 2000) (j : Fin 64), y = ix2 p j := ⟨y 0, y 1, eq_ix2 y⟩
  exact pay2_apply v0 v2 v7 v9 v11 v16 v23 p j

/-! ## The printed index maps -/

/-- The printed index maps, decided over the grid: the three row-blocked inputs and the second output move with the
    first output, the three weights and the bias stay at their one block, and the first output's row block is the
    point's number. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = win0_7.index t (0 : Fin 2) ∧ win0_6.index t (1 : Fin 2) = 0
    ∧ win0_7.index t (1 : Fin 2) = 0 ∧ win0_7.index t (0 : Fin 2) ≤ 24
    ∧ win0_8.index t (0 : Fin 2) = win0_7.index t (0 : Fin 2) ∧ win0_8.index t (1 : Fin 2) = 0 :=
  (by decide +kernel : ∀ t : Fin grid0.N, _)

/-- Every row block of the first output is some point's. -/
theorem idx_onto7 : ∀ (q0 : Fin 25), ∃ t : Fin cfg0.N, win0_7.index t = ![q0.val, 0] :=
  (by decide +kernel : ∀ (q0 : Fin 25), ∃ t : Fin grid0.N, win0_7.index t = ![q0.val, 0])

/-- Every row block of the second output is some point's. -/
theorem idx_onto8 : ∀ (q0 : Fin 25), ∃ t : Fin cfg0.N, win0_8.index t = ![q0.val, 0] :=
  (by decide +kernel : ∀ (q0 : Fin 25), ∃ t : Fin grid0.N, win0_8.index t = ![q0.val, 0])

/-- The reciprocal in-degrees are written back at no point. -/
theorem noflush6 : ∀ t : Fin cfg0.N, (cfg0.win 6).flush t = false :=
  (by decide +kernel : ∀ t : Fin grid0.N, win0_6.flush t = false)

section
variable (V : (c : Dev nD) → (b : Ref sig .tc) → Buf (Elt Ideal) ((c : Thread nD τ).loc b))

/-- What point `t` writes back to the first output, entry by entry: the first layer of the arrays at the entry's
    place in the array. -/
theorem point_eq7 (c : Dev nD) (t : Fin cfg0.N) (y : S2000x128.Idx) :
    k0_pay1 (iblk0 V c 0 t) (iblk0 V c 6 t) (iblk0 V c 1 t) (iblk0 V c 2 t) (iblk0 V c 4 t) (iblk0 V c 3 t) y
      = H (V c main_v24) (V c main_v13) (V c main_arg2) (V c main_v25) (V c main_arg4) (V c main_v12)
          (((cfg0.win 7).blk t).view.emb y) := by
  refine (pay1_apply' (iblk0 V c 0 t) (iblk0 V c 6 t) (iblk0 V c 1 t) (iblk0 V c 2 t) (iblk0 V c 4 t) (iblk0 V c 3 t) y).trans ?_
  obtain ⟨e0, e1, e2, e3, e4, e5, e6, e7, e8, e9, e10, e11, e12, e13, e14, e15, e16, e17⟩ := idx_facts t
  have hy0 : (y 0).val < 2000 := (y 0).isLt
  have hy1 : (y 1).val < 128 := (y 1).isLt
  unfold H
  show Hat (V c main_v24) (V c main_v13) (V c main_arg2) (V c main_v25) (V c main_arg4) (V c main_v12)
      (fun k => ((cfg0.win 0).blk t).view.emb (ix2 (⟨(y 0).val, (y 0).isLt⟩ : Fin 2000) k))
      (((cfg0.win 6).blk t).view.emb (ix2 (⟨(y 0).val, (y 0).isLt⟩ : Fin 2000) (0 : Fin 1)))
      (fun k => ((cfg0.win 2).blk t).view.emb (ix2 k (⟨(y 1).val, (y 1).isLt⟩ : Fin 128)))
      (fun k => ((cfg0.win 1).blk t).view.emb (ix2 (⟨(y 0).val, (y 0).isLt⟩ : Fin 2000) k))
      (fun k => ((cfg0.win 4).blk t).view.emb (ix2 k (⟨(y 1).val, (y 1).isLt⟩ : Fin 128)))
      (((cfg0.win 3).blk t).view.emb (ix2 (0 : Fin 1) (⟨(y 1).val, (y 1).isLt⟩ : Fin 128))) = _
  have h0 : ∀ k : Fin 128, ((cfg0.win 0).blk t).view.emb (ix2 (⟨(y 0).val, (y 0).isLt⟩ : Fin 2000) k)
      = ix2 (⟨((((cfg0.win 7).blk t).view.emb y) 0).val, ((((cfg0.win 7).blk t).view.emb y) 0).isLt⟩ : Fin 50000) k := by
    intro k
    funext a; apply Fin.ext
    match a with
    | ⟨0, _⟩ => show win0_0.index t (0 : Fin 2) * 2000 + 1 * (y 0).val = win0_7.index t (0 : Fin 2) * 2000 + 1 * (y 0).val; omega
    | ⟨1, _⟩ => show win0_0.index t (1 : Fin 2) * 128 + 1 * k.val = k.val; omega
  have h1 : ∀ k : Fin 128, ((cfg0.win 1).blk t).view.emb (ix2 (⟨(y 0).val, (y 0).isLt⟩ : Fin 2000) k)
      = ix2 (⟨((((cfg0.win 7).blk t).view.emb y) 0).val, ((((cfg0.win 7).blk t).view.emb y) 0).isLt⟩ : Fin 50000) k := by
    intro k
    funext a; apply Fin.ext
    match a with
    | ⟨0, _⟩ => show win0_1.index t (0 : Fin 2) * 2000 + 1 * (y 0).val = win0_7.index t (0 : Fin 2) * 2000 + 1 * (y 0).val; omega
    | ⟨1, _⟩ => show win0_1.index t (1 : Fin 2) * 128 + 1 * k.val = k.val; omega
  have h6 : ((cfg0.win 6).blk t).view.emb (ix2 (⟨(y 0).val, (y 0).isLt⟩ : Fin 2000) (0 : Fin 1))
      = ix2 (⟨((((cfg0.win 7).blk t).view.emb y) 0).val, ((((cfg0.win 7).blk t).view.emb y) 0).isLt⟩ : Fin 50000) (0 : Fin 1) := by
    funext a; apply Fin.ext
    match a with
    | ⟨0, _⟩ => show win0_6.index t (0 : Fin 2) * 2000 + 1 * (y 0).val = win0_7.index t (0 : Fin 2) * 2000 + 1 * (y 0).val; omega
    | ⟨1, _⟩ => show win0_6.index t (1 : Fin 2) * 1 + 1 * 0 = 0; omega
  have h2 : ∀ k : Fin 128, ((cfg0.win 2).blk t).view.emb (ix2 k (⟨(y 1).val, (y 1).isLt⟩ : Fin 128))
      = ix2 k (⟨((((cfg0.win 7).blk t).view.emb y) 1).val, ((((cfg0.win 7).blk t).view.emb y) 1).isLt⟩ : Fin 128) := by
    intro k
    funext a; apply Fin.ext
    match a with
    | ⟨0, _⟩ => show win0_2.index t (0 : Fin 2) * 128 + 1 * k.val = k.val; omega
    | ⟨1, _⟩ => show win0_2.index t (1 : Fin 2) * 128 + 1 * (y 1).val = win0_7.index t (1 : Fin 2) * 128 + 1 * (y 1).val; omega
  have h4 : ∀ k : Fin 128, ((cfg0.win 4).blk t).view.emb (ix2 k (⟨(y 1).val, (y 1).isLt⟩ : Fin 128))
      = ix2 k (⟨((((cfg0.win 7).blk t).view.emb y) 1).val, ((((cfg0.win 7).blk t).view.emb y) 1).isLt⟩ : Fin 128) := by
    intro k
    funext a; apply Fin.ext
    match a with
    | ⟨0, _⟩ => show win0_4.index t (0 : Fin 2) * 128 + 1 * k.val = k.val; omega
    | ⟨1, _⟩ => show win0_4.index t (1 : Fin 2) * 128 + 1 * (y 1).val = win0_7.index t (1 : Fin 2) * 128 + 1 * (y 1).val; omega
  have h3 : ((cfg0.win 3).blk t).view.emb (ix2 (0 : Fin 1) (⟨(y 1).val, (y 1).isLt⟩ : Fin 128))
      = ix2 (0 : Fin 1) (⟨((((cfg0.win 7).blk t).view.emb y) 1).val, ((((cfg0.win 7).blk t).view.emb y) 1).isLt⟩ : Fin 128) := by
    funext a; apply Fin.ext
    match a with
    | ⟨0, _⟩ => show win0_3.index t (0 : Fin 2) * 1 + 1 * 0 = 0; omega
    | ⟨1, _⟩ => show win0_3.index t (1 : Fin 2) * 128 + 1 * (y 1).val = win0_7.index t (1 : Fin 2) * 128 + 1 * (y 1).val; omega
  rw [funext h0, h6, funext h2, funext h1, funext h4, h3]

end

section
variable (V : (c : Dev nD) → (b : Ref sig .tc) → Buf (Elt Ideal) ((c : Thread nD τ).loc b))

/-- What point `t` writes back to the second output, entry by entry: the projected first layer of the arrays at the
    entry's place in the array. -/
theorem point_eq8 (c : Dev nD) (t : Fin cfg0.N) (y : S2000x64.Idx) :
    k0_pay2 (iblk0 V c 0 t) (iblk0 V c 6 t) (iblk0 V c 1 t) (iblk0 V c 2 t) (iblk0 V c 4 t) (iblk0 V c 3 t) (iblk0 V c 5 t) y
      = P (V c main_v24) (V c main_v13) (V c main_arg2) (V c main_v25) (V c main_arg4) (V c main_arg5) (V c main_v12)
          (((cfg0.win 8).blk t).view.emb y) := by
  refine (pay2_apply' (iblk0 V c 0 t) (iblk0 V c 6 t) (iblk0 V c 1 t) (iblk0 V c 2 t) (iblk0 V c 4 t) (iblk0 V c 3 t)
    (iblk0 V c 5 t) y).trans ?_
  obtain ⟨e0, e1, e2, e3, e4, e5, e6, e7, e8, e9, e10, e11, e12, e13, e14, e15, e16, e17⟩ := idx_facts t
  have hy0 : (y 0).val < 2000 := (y 0).isLt
  have hy1 : (y 1).val < 64 := (y 1).isLt
  unfold P
  show (∑ k : Fin 128, k0_pay1 (iblk0 V c 0 t) (iblk0 V c 6 t) (iblk0 V c 1 t) (iblk0 V c 2 t) (iblk0 V c 4 t) (iblk0 V c 3 t)
        (ix2 (⟨(y 0).val, (y 0).isLt⟩ : Fin 2000) k)
      * V c main_arg5 (((cfg0.win 5).blk t).view.emb (ix2 k (⟨(y 1).val, (y 1).isLt⟩ : Fin 64)))) = _
  refine Finset.sum_congr rfl fun k _ => ?_
  have h7 : ((cfg0.win 7).blk t).view.emb (ix2 (⟨(y 0).val, (y 0).isLt⟩ : Fin 2000) k)
      = ix2 (⟨((((cfg0.win 8).blk t).view.emb y) 0).val, ((((cfg0.win 8).blk t).view.emb y) 0).isLt⟩ : Fin 50000) k := by
    funext a; apply Fin.ext
    match a with
    | ⟨0, _⟩ => show win0_7.index t (0 : Fin 2) * 2000 + 1 * (y 0).val = win0_8.index t (0 : Fin 2) * 2000 + 1 * (y 0).val; omega
    | ⟨1, _⟩ => show win0_7.index t (1 : Fin 2) * 128 + 1 * k.val = k.val; omega
  have h5 : ((cfg0.win 5).blk t).view.emb (ix2 k (⟨(y 1).val, (y 1).isLt⟩ : Fin 64))
      = ix2 k (⟨((((cfg0.win 8).blk t).view.emb y) 1).val, ((((cfg0.win 8).blk t).view.emb y) 1).isLt⟩ : Fin 64) := by
    funext a; apply Fin.ext
    match a with
    | ⟨0, _⟩ => show win0_5.index t (0 : Fin 2) * 128 + 1 * k.val = k.val; omega
    | ⟨1, _⟩ => show win0_5.index t (1 : Fin 2) * 64 + 1 * (y 1).val = win0_8.index t (1 : Fin 2) * 64 + 1 * (y 1).val; omega
  refine congrArg₂ (· * ·) ((point_eq7 V c t (ix2 (⟨(y 0).val, (y 0).isLt⟩ : Fin 2000) k)).trans (congrArg _ h7))
    (congrArg (V c main_arg5) h5)

/-- WHAT POINT `t` WRITES BACK to the first output is block `t` of the first layer of the arrays the kernel was started
    from. -/
theorem flushed_eq7 (c : Dev nD) (t : Fin cfg0.N) :
    (dat0 (F := Ideal) V c).flushed 7 t = ((cfg0.win 7).blk t).view.read (Elt Ideal)
      (H (V c main_v24) (V c main_v13) (V c main_arg2) (V c main_v25) (V c main_arg4) (V c main_v12)) := by
  show (cfg0.win 7).cut (grid0.coords t) ((dat0 V c).after 7 t) = _
  rw [after0_7]
  unfold out0_7
  rw [View.canon_unit_zero hz]
  simp only [View.ld_unit_zero (S := S2000x128) hz, View.ld_unit_zero (S := S2000x1) hz, View.ld_unit_zero (S := S128x128) hz,
    View.ld_unit_zero (S := S1x128) hz]
  exact funext fun y => point_eq7 V c t y

/-- WHAT POINT `t` WRITES BACK to the second output is block `t` of the projected first layer of the arrays the kernel
    was started from. -/
theorem flushed_eq8 (c : Dev nD) (t : Fin cfg0.N) :
    (dat0 (F := Ideal) V c).flushed 8 t = ((cfg0.win 8).blk t).view.read (Elt Ideal)
      (P (V c main_v24) (V c main_v13) (V c main_arg2) (V c main_v25) (V c main_arg4) (V c main_arg5) (V c main_v12)) := by
  show (cfg0.win 8).cut (grid0.coords t) ((dat0 V c).after 8 t) = _
  rw [after0_8]
  unfold out0_8
  rw [View.canon_unit_zero hz]
  simp only [View.ld_unit_zero (S := S2000x128) hz, View.ld_unit_zero (S := S2000x1) hz, View.ld_unit_zero (S := S128x128) hz,
    View.ld_unit_zero (S := S1x128) hz, View.ld_unit_zero (S := S128x64) hz]
  exact funext fun y => point_eq8 V c t y

/-- An index of the first output is in point `t`'s block iff each coordinate is in the block's range on its axis. -/
theorem mem_blk7 (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v26_0).slice (win0_7.rect t)).set ↔ _
  rw [View.set_slice_whole, Rect.mem_set_unit]
  exact Iff.rfl

/-- An index of the second output is in point `t`'s block iff each coordinate is in the block's range on its axis. -/
theorem mem_blk8 (t : Fin cfg0.N) (i : S50000x64.Idx) :
    i ∈ ((cfg0.win 8).blk t).view.set ↔ ∀ a : Fin 2, win0_8.index t a * S2000x64.size a ≤ (i a).val ∧ (i a).val < win0_8.index t a * S2000x64.size a + S2000x64.size a := by
  show i ∈ ((View.whole main_v26_1).slice (win0_8.rect t)).set ↔ _
  rw [View.set_slice_whole, Rect.mem_set_unit]
  exact Iff.rfl

/-- The 25 blocks of 2000 rows cover the 50000 rows of the first output: row `r` is in block `r / 2000`. -/
theorem cover7 (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ := idx_onto7 ⟨(i 0).val / 2000, by omega⟩
  have q0 : win0_7.index t (0 : Fin 2) = (i 0).val / 2000 := congrFun ht 0
  have q1 : win0_7.index t (1 : Fin 2) = 0 := congrFun ht 1
  refine ⟨t, flush0_7 t, ?_⟩
  rw [mem_blk7]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- The 25 blocks of 2000 rows cover the 50000 rows of the second output. -/
theorem cover8 (i : S50000x64.Idx) : ∃ t : Fin cfg0.N, (cfg0.win 8).flush t = true ∧ i ∈ ((cfg0.win 8).blk t).view.set := by
  have hi0 : (i 0).val < 50000 := (i 0).isLt
  have hi1 : (i 1).val < 64 := (i 1).isLt
  obtain ⟨t, ht⟩ := idx_onto8 ⟨(i 0).val / 2000, by omega⟩
  have q0 : win0_8.index t (0 : Fin 2) = (i 0).val / 2000 := congrFun ht 0
  have q1 : win0_8.index t (1 : Fin 2) = 0 := congrFun ht 1
  refine ⟨t, flush0_8 t, ?_⟩
  rw [mem_blk8]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 64 ≤ (i 1).val ∧ (i 1).val < win0_8.index t (1 : Fin 2) * 64 + 64; omega

/-- THE FIRST OUTPUT ARRAY after the last point: the first layer of the arrays the kernel was started from. -/
theorem final7 (c : Dev nD) :
    (dat0 (F := Ideal) V c).arrAt 7 cfg0.N
      = H (V c main_v24) (V c main_v13) (V c main_arg2) (V c main_v25) (V c main_arg4) (V c main_v12) :=
  (dat0 V c).arrAt_eq_of_cover 7 _ (fun t _ => flushed_eq7 V c t) cover7

/-- THE SECOND OUTPUT ARRAY after the last point: the projected first layer of the arrays the kernel was started
    from. -/
theorem final8 (c : Dev nD) :
    (dat0 (F := Ideal) V c).arrAt 8 cfg0.N
      = P (V c main_v24) (V c main_v13) (V c main_arg2) (V c main_v25) (V c main_arg4) (V c main_arg5) (V c main_v12) :=
  (dat0 V c).arrAt_eq_of_cover 8 _ (fun t _ => flushed_eq8 V c t) cover8

/-- THE RECIPROCAL IN-DEGREES after the last point are what they were: the kernel only reads them. -/
theorem kept6 (c : Dev nD) : (dat0 (F := Ideal) V c).arrAt 6 cfg0.N = V c main_v12 := by
  funext i
  refine ((dat0 V c).arrAt_apply_of_forall_not_mem 6 cfg0.N i fun t _ hf => ?_).trans (congrFun (A_eq0 V c 6) i)
  rw [noflush6 t] at hf
  exact absurd hf (by decide)

end

end Cert.KernelIdeal.Layer1

end
-- ==== Proof.KRegion1.lean ====
/-
  The second layer's combine, block by block and as a whole array.

  At grid point `t` the second kernel reads rows `2000·t … 2000·t + 1999` of the aggregated projections `a`
  (width 64), of the first layer's rows `h` (width 128) and of the reciprocal in-degrees `iv` (one column), and
  the whole of the root weight `w` and of the bias row `b`; it writes the same rows of the result.  Entry `(p, q)`
  of what it writes is `a(p,q)·iv(p) + b(q) + Σ_k h(p,k)·w(k,q)`, a function of the ROW `2000·t + p` of the arrays
  alone; the 25 blocks tile the 50000 rows, so after the last point the result array is that function of the arrays
  the kernel was started from, at every index.
-/
import proofs.«170039_j37160057045597_2_alg».proof.Proof.Gen.KernelIdeal.Frame
import proofs.«170039_j37160057045597_2_alg».proof.Proof.KDots
import proofs.«170039_j37160057045597_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Combine

open Cert.KernelIdeal Cert.KernelIdeal.Gen Cert.KernelIdeal.Dots Idealize.ShloMosaic Idealize.ShloMosaic.TcCoe
open Idealize.ShloMosaic.ValueIdx Idealize.SL.Sem Cert.LibColumn
open Idealize.ShloMosaic.Pipeline (Dat)

theorem hz : (![0, 0] : Fin 2 → Nat) = fun _ => 0 := funext fun a => by fin_cases a <;> rfl

/-- One entry of the second layer's combine, from the five arrays and the places it reads them at: the aggregated
    projection times the reciprocal in-degree, plus the bias, plus the row of `h` times the column of `w`. -/
def Gat {A H W B I : Type} (a : A → EReal) (h : H → EReal) (w : W → EReal) (b : B → EReal) (iv : I → EReal)
    (i0 : A) (i4 : I) (i3 : B) (i1 : Fin 128 → H) (i2 : Fin 128 → W) : EReal :=
  ((a i0 * iv i4) + b i3) + ∑ k : Fin 128, h (i1 k) * w (i2 k)

/-- The second layer's combine as one function of whole arrays: at `(n, j)` the aggregated projection times the
    reciprocal in-degree of row `n`, plus the bias at `j`, plus row `n` of `h` times column `j` of `w`. -/
def G (a : S50000x64.Idx → EReal) (h : S50000x128.Idx → EReal) (w : S128x64.Idx → EReal) (b : S1x64.Idx → EReal)
    (iv : S50000x1.Idx → EReal) : S50000x64.Idx → EReal :=
  fun i => Gat a h w b iv i (ix2 (⟨(i 0).val, (i 0).isLt⟩ : Fin 50000) (0 : Fin 1)) (ix2 (0 : Fin 1) (⟨(i 1).val, (i 1).isLt⟩ : Fin 64))
    (fun k => ix2 (⟨(i 0).val, (i 0).isLt⟩ : Fin 50000) k) (fun k => ix2 k (⟨(i 1).val, (i 1).isLt⟩ : Fin 64))

/-- The body's stored value at `(p, q)` of the block. -/
theorem pay_apply (x0 : Vec Ideal S2000x64 .f32) (x2 : Vec Ideal S2000x1 .f32) (x6 : Vec Ideal S2000x128 .bf16)
    (x8 : Vec Ideal S128x64 .f32) (x10 : Vec Ideal S1x64 .f32) (p : Fin 2000) (q : Fin 64) :
    k1_pay1 x0 x2 x6 x8 x10 (ix2 p q)
      = ((x0 (ix2 p q) * x2 (ix2 p (0 : Fin 1))) + x10 (ix2 (0 : Fin 1) q)) + ∑ k : Fin 128, x6 (ix2 p k) * x8 (ix2 k q) := by
  unfold k1_pay1
  simp only [shapeCast_self]
  rw [addf_apply, addf_apply, mulf_apply, broadcastTo_a1_ab_apply, broadcastTo_1b_ab_apply, matmul64_apply]
  rfl

/-- The same at an index not split into coordinates. -/
theorem pay_apply' (x0 : Vec Ideal S2000x64 .f32) (x2 : Vec Ideal S2000x1 .f32) (x6 : Vec Ideal S2000x128 .bf16)
    (x8 : Vec Ideal S128x64 .f32) (x10 : Vec Ideal S1x64 .f32) (y : S2000x64.Idx) :
    k1_pay1 x0 x2 x6 x8 x10 y
      = Gat x0 x6 x8 x10 x2 y (ix2 (⟨(y 0).val, (y 0).isLt⟩ : Fin 2000) (0 : Fin 1)) (ix2 (0 : Fin 1) (⟨(y 1).val, (y 1).isLt⟩ : Fin 64))
          (fun k => ix2 (⟨(y 0).val, (y 0).isLt⟩ : Fin 2000) k) (fun k => ix2 k (⟨(y 1).val, (y 1).isLt⟩ : Fin 64)) := by
  obtain ⟨p, q, rfl⟩ : ∃ (p : Fin 2000) (q : Fin 64), y = ix2 p q := ⟨y 0, y 1, eq_ix2 y⟩
  exact pay_apply x0 x2 x6 x8 x10 p q

/-- The printed index maps, decided over the grid: the three row-blocked inputs move with the output, the weight
    and the bias stay at their one block, and the output's row block is the point's number. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = win1_5.index t (0 : Fin 2) ∧ win1_4.index t (1 : Fin 2) = 0
    ∧ win1_5.index t (1 : Fin 2) = 0 ∧ win1_5.index t (0 : Fin 2) ≤ 24 :=
  (by decide +kernel : ∀ t : Fin grid1.N, _)

/-- Every row block is some point's. -/
theorem idx_onto : ∀ (q0 : Fin 25), ∃ t : Fin cfg1.N, win1_5.index t = ![q0.val, 0] :=
  (by decide +kernel : ∀ (q0 : Fin 25), ∃ t : Fin grid1.N, win1_5.index t = ![q0.val, 0])

section
variable (V : (c : Dev nD) → (b : Ref sig .tc) → Buf (Elt Ideal) ((c : Thread nD τ).loc b))

/-- What point `t` writes back, entry by entry: the combine of the arrays at the entry's place in the array. -/
theorem point_eq (c : Dev nD) (t : Fin cfg1.N) (y : S2000x64.Idx) :
    k1_pay1 (iblk1 V c 0 t) (iblk1 V c 4 t) (iblk1 V c 1 t) (iblk1 V c 2 t) (iblk1 V c 3 t) y
      = G (V c main_v37) (V c main_v26_0) (V c main_arg7) (V c main_v38) (V c main_v12) (((cfg1.win 5).blk t).view.emb y) := by
  refine (pay_apply' (iblk1 V c 0 t) (iblk1 V c 4 t) (iblk1 V c 1 t) (iblk1 V c 2 t) (iblk1 V c 3 t) y).trans ?_
  obtain ⟨e0, e1, e2, e3, e4, e5, e6, e7, e8, e9, e10, e11⟩ := idx_facts t
  have hy0 : (y 0).val < 2000 := (y 0).isLt
  have hy1 : (y 1).val < 64 := (y 1).isLt
  unfold G
  show Gat (V c main_v37) (V c main_v26_0) (V c main_arg7) (V c main_v38) (V c main_v12)
      (((cfg1.win 0).blk t).view.emb y)
      (((cfg1.win 4).blk t).view.emb (ix2 (⟨(y 0).val, (y 0).isLt⟩ : Fin 2000) (0 : Fin 1)))
      (((cfg1.win 3).blk t).view.emb (ix2 (0 : Fin 1) (⟨(y 1).val, (y 1).isLt⟩ : Fin 64)))
      (fun k => ((cfg1.win 1).blk t).view.emb (ix2 (⟨(y 0).val, (y 0).isLt⟩ : Fin 2000) k))
      (fun k => ((cfg1.win 2).blk t).view.emb (ix2 k (⟨(y 1).val, (y 1).isLt⟩ : Fin 64))) = _
  have h0 : ((cfg1.win 0).blk t).view.emb y = ((cfg1.win 5).blk t).view.emb y := by
    funext a; apply Fin.ext
    match a with
    | ⟨0, _⟩ => show win1_0.index t (0 : Fin 2) * 2000 + 1 * (y 0).val = win1_5.index t (0 : Fin 2) * 2000 + 1 * (y 0).val; omega
    | ⟨1, _⟩ => show win1_0.index t (1 : Fin 2) * 64 + 1 * (y 1).val = win1_5.index t (1 : Fin 2) * 64 + 1 * (y 1).val; omega
  have h4 : ((cfg1.win 4).blk t).view.emb (ix2 (⟨(y 0).val, (y 0).isLt⟩ : Fin 2000) (0 : Fin 1))
      = ix2 (⟨((((cfg1.win 5).blk t).view.emb y) 0).val, ((((cfg1.win 5).blk t).view.emb y) 0).isLt⟩ : Fin 50000) (0 : Fin 1) := by
    funext a; apply Fin.ext
    match a with
    | ⟨0, _⟩ => show win1_4.index t (0 : Fin 2) * 2000 + 1 * (y 0).val = win1_5.index t (0 : Fin 2) * 2000 + 1 * (y 0).val; omega
    | ⟨1, _⟩ => show win1_4.index t (1 : Fin 2) * 1 + 1 * 0 = 0; omega
  have h3 : ((cfg1.win 3).blk t).view.emb (ix2 (0 : Fin 1) (⟨(y 1).val, (y 1).isLt⟩ : Fin 64))
      = ix2 (0 : Fin 1) (⟨((((cfg1.win 5).blk t).view.emb y) 1).val, ((((cfg1.win 5).blk t).view.emb y) 1).isLt⟩ : Fin 64) := by
    funext a; apply Fin.ext
    match a with
    | ⟨0, _⟩ => show win1_3.index t (0 : Fin 2) * 1 + 1 * 0 = 0; omega
    | ⟨1, _⟩ => show win1_3.index t (1 : Fin 2) * 64 + 1 * (y 1).val = win1_5.index t (1 : Fin 2) * 64 + 1 * (y 1).val; omega
  have h1 : ∀ k : Fin 128, ((cfg1.win 1).blk t).view.emb (ix2 (⟨(y 0).val, (y 0).isLt⟩ : Fin 2000) k)
      = ix2 (⟨((((cfg1.win 5).blk t).view.emb y) 0).val, ((((cfg1.win 5).blk t).view.emb y) 0).isLt⟩ : Fin 50000) k := by
    intro k
    funext a; apply Fin.ext
    match a with
    | ⟨0, _⟩ => show win1_1.index t (0 : Fin 2) * 2000 + 1 * (y 0).val = win1_5.index t (0 : Fin 2) * 2000 + 1 * (y 0).val; omega
    | ⟨1, _⟩ => show win1_1.index t (1 : Fin 2) * 128 + 1 * k.val = k.val; omega
  have h2 : ∀ k : Fin 128, ((cfg1.win 2).blk t).view.emb (ix2 k (⟨(y 1).val, (y 1).isLt⟩ : Fin 64))
      = ix2 k (⟨((((cfg1.win 5).blk t).view.emb y) 1).val, ((((cfg1.win 5).blk t).view.emb y) 1).isLt⟩ : Fin 64) := by
    intro k
    funext a; apply Fin.ext
    match a with
    | ⟨0, _⟩ => show win1_2.index t (0 : Fin 2) * 128 + 1 * k.val = k.val; omega
    | ⟨1, _⟩ => show win1_2.index t (1 : Fin 2) * 64 + 1 * (y 1).val = win1_5.index t (1 : Fin 2) * 64 + 1 * (y 1).val; omega
  rw [h0, h4, h3, funext h1, funext h2]

/-- WHAT POINT `t` WRITES BACK is block `t` of the combine of the arrays the kernel was started from. -/
theorem flushed_eq (c : Dev nD) (t : Fin cfg1.N) :
    (dat1 (F := Ideal) V c).flushed 5 t = ((cfg1.win 5).blk t).view.read (Elt Ideal)
      (G (V c main_v37) (V c main_v26_0) (V c main_arg7) (V c main_v38) (V c main_v12)) := by
  show (cfg1.win 5).cut (grid1.coords t) ((dat1 V c).after 5 t) = _
  rw [after1_5]
  unfold out1_5
  rw [View.canon_unit_zero hz]
  simp only [View.ld_unit_zero (S := S2000x64) hz, View.ld_unit_zero (S := S2000x1) hz, View.ld_unit_zero (S := S2000x128) hz,
    View.ld_unit_zero (S := S128x64) hz, View.ld_unit_zero (S := S1x64) hz]
  exact funext fun y => point_eq V c t y

/-- An index of the result is in point `t`'s block iff each coordinate is in the block's range on its axis. -/
theorem mem_blk (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v39).slice (win1_5.rect t)).set ↔ _
  rw [View.set_slice_whole, Rect.mem_set_unit]
  exact Iff.rfl

/-- The 25 blocks of 2000 rows cover the 50000 rows: row `r` is in block `r / 2000`. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := idx_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- THE RESULT ARRAY after the last point: the combine of the arrays the kernel was started from. -/
theorem final (c : Dev nD) :
    (dat1 (F := Ideal) V c).arrAt 5 cfg1.N = G (V c main_v37) (V c main_v26_0) (V c main_arg7) (V c main_v38) (V c main_v12) :=
  (dat1 V c).arrAt_eq_of_cover 5 _ (fun t _ => flushed_eq V c t) cover

end

end Cert.KernelIdeal.Combine

end
-- ==== Proof.KHost.lean ====
/-
  The host operations of the two-layer mean aggregation, read at an index.

  Between the launch and the first layer's region the host computes, from the edge list (two rows of node numbers:
  sources, then targets) and the node features: the reciprocal of each node's in-degree (at least one), by a segment
  sum of ones over the edges' targets; and the sum of the features of each node's neighbours, by gathering the
  source rows and summing them per target.  Between the two regions it does the same segment sum over the rows the
  first region stored.  This module names the source and target columns, reads each of those buffers at an index as
  the quantities of the index-by-index statement (in-degree reciprocal, neighbour sums), and records which buffers
  each stretch of host operations leaves untouched.
-/
import proofs.«170039_j37160057045597_2_alg».proof.Proof.Gen.KernelIdeal.Frame
import proofs.«170039_j37160057045597_2_alg».proof.Proof.Spec
import proofs.«170039_j37160057045597_2_alg».proof.Proof.LibSegment
import proofs.«170039_j37160057045597_2_alg».proof.Proof.LibColumn
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HostParts

open Idealize.ShloMosaic Idealize.ShloMosaic.TcCoe Idealize.ShloMosaic.ValueIdx Idealize.SL.Sem
open Cert.KernelIdeal Cert.KernelIdeal.Gen
open Cert.LibSegment Cert.LibColumn

/-- The source column: row 0 of the edge list, a negative entry wrapped once by the number of nodes, as a column. -/
def srcOf (ei : IVec S2x640000 32) : IVec S640000x1 32 :=
  broadcastInDim S640000x1 ![0] bcast_S640000_S640000x1_0 (select (cmpi .slt (shapeCast _ (extractStridedSlice S1x640000 ![0, 0] ei slices_S2x640000_S1x640000_0_0) shapeCasts_S1x640000_S640000) (broadcastInDim S640000 ![] bcast_S_S640000 (constantI S_ 32 0#32))) (addi (shapeCast _ (extractStridedSlice S1x640000 ![0, 0] ei slices_S2x640000_S1x640000_0_0) shapeCasts_S1x640000_S640000) (broadcastInDim S640000 ![] bcast_S_S640000 (constantI S_ 32 50000#32))) (shapeCast _ (extractStridedSlice S1x640000 ![0, 0] ei slices_S2x640000_S1x640000_0_0) shapeCasts_S1x640000_S640000))

/-- The target column: row 1 of the edge list, as a column. -/
def dstOf (ei : IVec S2x640000 32) : IVec S640000x1 32 :=
  broadcastInDim S640000x1 ![0] bcast_S640000_S640000x1_0 (shapeCast _ (extractStridedSlice S1x640000 ![1, 0] ei slices_S2x640000_S1x640000_1_0) shapeCasts_S1x640000_S640000)

/-- Closes "no operation of the line writes this buffer": the line unfolded, each operation's one result buffer told
    apart from the given one as references. -/
local macro "no_write" ops:ident : tactic =>
  `(tactic| (
    refine List.forall_iff_forall_mem.mp ?_
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ### The operations' terms read at an index, over arbitrary operands -/

/-- The segment sum of the gathered rows (width 128), started from zero, is the sum of the neighbours' features. -/
theorem agg_read (src dst : IVec S640000x1 32) (x : FVec Ideal S50000x128 .f32) (n : Fin 50000) (k : Fin 128) :
    Host.scatterAdd (F := Ideal) scatter_S50000x128_S640000x1_S640000x128_1_0_0_1
      (broadcastInDim S50000x128 ![] bcast_S_S50000x128 (constant (F := Ideal) S_ .f32 0x00000000#32))
      dst
      (extf .f32 (Host.gather gather_S50000x128_S640000x1_S640000x128_1_0_n_n_0_1_1128
        (truncf .bf16 x bitsLt_bf16_f32) src) bitsLt_bf16_f32) (ix2 n k)
    = Cert.Sage.agg src dst x (Ideal.ofBits .f32 0x00000000#32) n k := by
  refine (host_scatterAdd_seg_apply (N := 50000) (E := 640000) (C := 128)
    scatter_S50000x128_S640000x1_S640000x128_1_0_0_1_wf dst _ _ n k).trans ?_
  unfold Cert.Sage.agg Cert.Sage.seg Cert.Sage.row
  refine congrArg₂ (· + ·) rfl (Finset.sum_congr rfl fun e _ => ?_)
  exact gather_rows_apply (N := 50000) (E := 640000) (C := 128) (by decide)
    gather_S50000x128_S640000x1_S640000x128_1_0_n_n_0_1_1128_wf _ src e k

/-- One over the larger of a count and one, stored as a column, read at a row: over an arbitrary count vector. -/
theorem inv_shape (cntv : FVec Ideal S50000 .f32) (n : Fin 50000) :
    shapeCast S50000x1 (Host.divf (F := Ideal)
      (broadcastInDim S50000 ![] bcast_S_S50000 (constant (F := Ideal) S_ .f32 0x3F800000#32))
      (maximumf cntv
        (broadcastInDim S50000 ![] bcast_S_S50000 (constant (F := Ideal) S_ .f32 0x3F800000#32)))) shapeCasts_S50000_S50000x1
      (ix2 n (0 : Fin 1))
    = Ideal.div (Ideal.ofBits .f32 0x3F800000#32) (max (cntv (ix1 n)) (Ideal.ofBits .f32 0x3F800000#32)) := by
  refine (shapeCast_a_a1_apply _ shapeCasts_S50000_S50000x1 n (0 : Fin 1)).trans ?_
  rfl

/-- The rank-1 segment sum of ones, started from zero, is the in-degree. -/
theorem cnt_read (dst : IVec S640000x1 32) (n : Fin 50000) :
    Host.scatterAdd (F := Ideal) scatter_S50000_S640000x1_S640000_n_0_0_1
          (broadcastInDim S50000 ![] bcast_S_S50000 (constant (F := Ideal) S_ .f32 0x00000000#32))
          dst
          (broadcastInDim S640000 ![] bcast_S_S640000 (constant (F := Ideal) S_ .f32 0x3F800000#32)) (ix1 n)
    = Cert.Sage.cnt dst (Ideal.ofBits .f32 0x00000000#32) (Ideal.ofBits .f32 0x3F800000#32) n := by
  refine (host_scatterAdd_seg1_apply (N := 50000) (E := 640000) scatter_S50000_S640000x1_S640000_n_0_0_1_wf dst _ _ n).trans ?_
  unfold Cert.Sage.cnt Cert.Sage.seg
  rfl

/-- The reciprocal of the in-degree (at least one), stored as a column. -/
theorem inv_read (dst : IVec S640000x1 32) (n : Fin 50000) :
    shapeCast S50000x1 (Host.divf (F := Ideal)
      (broadcastInDim S50000 ![] bcast_S_S50000 (constant (F := Ideal) S_ .f32 0x3F800000#32))
      (maximumf (Host.scatterAdd (F := Ideal) scatter_S50000_S640000x1_S640000_n_0_0_1
          (broadcastInDim S50000 ![] bcast_S_S50000 (constant (F := Ideal) S_ .f32 0x00000000#32))
          dst
          (broadcastInDim S640000 ![] bcast_S_S640000 (constant (F := Ideal) S_ .f32 0x3F800000#32)))
        (broadcastInDim S50000 ![] bcast_S_S50000 (constant (F := Ideal) S_ .f32 0x3F800000#32)))) shapeCasts_S50000_S50000x1
      (ix2 n (0 : Fin 1))
    = Cert.Sage.inv dst (Ideal.ofBits .f32 0x00000000#32) (Ideal.ofBits .f32 0x3F800000#32) n := by
  refine (inv_shape _ n).trans ?_
  rw [cnt_read]
  rfl

/-- The segment sum of the gathered rows (width 64), started from zero, over an arbitrary table. -/
theorem agg64_read (src dst : IVec S640000x1 32) (P : FVec Ideal S50000x64 .bf16) (n : Fin 50000) (j : Fin 64) :
    Host.scatterAdd (F := Ideal) scatter_S50000x64_S640000x1_S640000x64_1_0_0_1
      (broadcastInDim S50000x64 ![] bcast_S_S50000x64 (constant (F := Ideal) S_ .f32 0x00000000#32))
      dst
      (extf .f32 (Host.gather gather_S50000x64_S640000x1_S640000x64_1_0_n_n_0_1_164 P src) bitsLt_bf16_f32) (ix2 n j)
    = Ideal.ofBits .f32 0x00000000#32 + ∑ e ∈ Cert.Sage.seg dst n, P (ix2 (Cert.Sage.row src e) j) := by
  refine (host_scatterAdd_seg_apply (N := 50000) (E := 640000) (C := 64)
    scatter_S50000x64_S640000x1_S640000x64_1_0_0_1_wf dst _ _ n j).trans ?_
  unfold Cert.Sage.seg Cert.Sage.row
  refine congrArg₂ (· + ·) rfl (Finset.sum_congr rfl fun e _ => ?_)
  exact gather_rows_apply (N := 50000) (E := 640000) (C := 64) (by decide)
    gather_S50000x64_S640000x1_S640000x64_1_0_n_n_0_1_164_wf _ src e j

variable (m : (ℓ : Loc nD τ sig) → Buf (Elt Ideal) ℓ) (ρ : Dev nD → PrngReg) (c : Dev nD)

/-! ## The first stretch: from the launch to the first region -/

/-- The neighbour sums' buffer, as a term over the launch contents. -/
theorem v24_eq : (Gen.V1 m ρ c main_v24 : S50000x128.Idx → EReal) =
    Host.scatterAdd (F := Ideal) scatter_S50000x128_S640000x1_S640000x128_1_0_0_1
      (broadcastInDim S50000x128 ![] bcast_S_S50000x128 (constant (F := Ideal) S_ .f32 0x00000000#32))
      (dstOf (m ((c : Thread nD τ).loc main_arg1)))
      (extf .f32 (Host.gather gather_S50000x128_S640000x1_S640000x128_1_0_n_n_0_1_1128
        (truncf .bf16 (m ((c : Thread nD τ).loc main_arg0) : FVec Ideal S50000x128 .f32) bitsLt_bf16_f32)
        (srcOf (m ((c : Thread nD τ).loc main_arg1)))) bitsLt_bf16_f32) := by
  dsimp only [Gen.V1, Gen.W1, Gen.hostOps0]
  after_results_simp <;> rfl

/-- The in-degree reciprocals' buffer, as a term over the launch contents. -/
theorem v12_eq : (Gen.V1 m ρ c main_v12 : S50000x1.Idx → EReal) =
    shapeCast S50000x1 (Host.divf (F := Ideal)
      (broadcastInDim S50000 ![] bcast_S_S50000 (constant (F := Ideal) S_ .f32 0x3F800000#32))
      (maximumf (Host.scatterAdd (F := Ideal) scatter_S50000_S640000x1_S640000_n_0_0_1
          (broadcastInDim S50000 ![] bcast_S_S50000 (constant (F := Ideal) S_ .f32 0x00000000#32))
          (dstOf (m ((c : Thread nD τ).loc main_arg1)))
          (broadcastInDim S640000 ![] bcast_S_S640000 (constant (F := Ideal) S_ .f32 0x3F800000#32)))
        (broadcastInDim S50000 ![] bcast_S_S50000 (constant (F := Ideal) S_ .f32 0x3F800000#32)))) shapeCasts_S50000_S50000x1 := by
  dsimp only [Gen.V1, Gen.W1, Gen.hostOps0]
  after_results_simp <;> rfl

/-- The reciprocal of the in-degree (at least one), as the first region finds it. -/
theorem V1_main_v12 (n : Fin 50000) :
    (Gen.V1 m ρ c main_v12 : S50000x1.Idx → EReal) (ix2 n (0 : Fin 1))
      = Cert.Sage.inv (dstOf (m ((c : Thread nD τ).loc main_arg1)))
          (Ideal.ofBits .f32 0x00000000#32) (Ideal.ofBits .f32 0x3F800000#32) n :=
  (congrFun (v12_eq m ρ c) (ix2 n (0 : Fin 1))).trans (inv_read _ n)

/-- The sum of the neighbours' features, as the first region finds it. -/
theorem V1_main_v24 (n : Fin 50000) (k : Fin 128) :
    (Gen.V1 m ρ c main_v24 : S50000x128.Idx → EReal) (ix2 n k)
      = Cert.Sage.agg (srcOf (m ((c : Thread nD τ).loc main_arg1))) (dstOf (m ((c : Thread nD τ).loc main_arg1)))
          (m ((c : Thread nD τ).loc main_arg0) : S50000x128.Idx → EReal) (Ideal.ofBits .f32 0x00000000#32) n k :=
  (congrFun (v24_eq m ρ c) (ix2 n k)).trans (agg_read _ _ _ n k)

/-- The narrowed copy of the features holds the features. -/
theorem V1_main_v13 : (Gen.V1 m ρ c main_v13 : S50000x128.Idx → EReal)
    = (m ((c : Thread nD τ).loc main_arg0) : S50000x128.Idx → EReal) := by
  dsimp only [Gen.V1, Gen.W1, Gen.hostOps0]
  after_results_simp <;> rfl

/-- The same, at an index. -/
theorem V1_main_v13_apply (i : S50000x128.Idx) : (Gen.V1 m ρ c main_v13 : S50000x128.Idx → EReal) i
    = (m ((c : Thread nD τ).loc main_arg0) : S50000x128.Idx → EReal) i :=
  congrFun (V1_main_v13 m ρ c) i

/-- The first bias, stored as a row. -/
theorem V1_main_v25 (k : Fin 128) :
    (Gen.V1 m ρ c main_v25 : S1x128.Idx → EReal) (ix2 (0 : Fin 1) k)
      = (m ((c : Thread nD τ).loc main_arg3) : S128.Idx → EReal) (ix1 k) := by
  have e : (Gen.V1 m ρ c main_v25 : S1x128.Idx → EReal)
      = shapeCast S1x128 (m ((c : Thread nD τ).loc main_arg3) : S128.Idx → EReal) shapeCasts_S128_S1x128 := by
    dsimp only [Gen.V1, Gen.W1, Gen.hostOps0]
    after_results_simp <;> rfl
  exact (congrFun e (ix2 (0 : Fin 1) k)).trans (shapeCast_a_1a_apply _ shapeCasts_S128_S1x128 (0 : Fin 1) k)

/-! ### Buffers the first stretch leaves as launched -/

theorem V1_main_arg2 : Gen.V1 m ρ c main_arg2 = m ((c : Thread nD τ).loc main_arg2) :=
  (StableHlo.after_of_forall_not_mem (b := Proc.devRef .tc main_arg2) _ _ (by no_write Gen.hostOps0)).trans rfl
theorem V1_main_arg4 : Gen.V1 m ρ c main_arg4 = m ((c : Thread nD τ).loc main_arg4) :=
  (StableHlo.after_of_forall_not_mem (b := Proc.devRef .tc main_arg4) _ _ (by no_write Gen.hostOps0)).trans rfl
theorem V1_main_arg5 : Gen.V1 m ρ c main_arg5 = m ((c : Thread nD τ).loc main_arg5) :=
  (StableHlo.after_of_forall_not_mem (b := Proc.devRef .tc main_arg5) _ _ (by no_write Gen.hostOps0)).trans rfl

/-! ## After the first region -/

/-! ### Arguments the first region does not touch -/

theorem W2_main_arg6 : Gen.W2 m ρ c (Proc.devRef .tc main_arg6) = m ((c : Thread nD τ).loc main_arg6) :=
  (Gen.W2_of_ne m ρ c main_arg6 (by decide)).trans
    ((StableHlo.after_of_forall_not_mem (b := Proc.devRef .tc main_arg6) _ _ (by no_write Gen.hostOps0)).trans rfl)
theorem W2_main_arg7 : Gen.W2 m ρ c (Proc.devRef .tc main_arg7) = m ((c : Thread nD τ).loc main_arg7) :=
  (Gen.W2_of_ne m ρ c main_arg7 (by decide)).trans
    ((StableHlo.after_of_forall_not_mem (b := Proc.devRef .tc main_arg7) _ _ (by no_write Gen.hostOps0)).trans rfl)

/-! ### The edge rows as the second stretch finds them -/

/-- Row 0 of the edge list, flattened, as the first region leaves it. -/
theorem W2_main_v1 : (Gen.W2 m ρ c (Proc.devRef .tc main_v1) : IVec S640000 32)
    = shapeCast S640000 (extractStridedSlice S1x640000 ![0, 0] (m ((c : Thread nD τ).loc main_arg1) : IVec S2x640000 32)
        slices_S2x640000_S1x640000_0_0) shapeCasts_S1x640000_S640000 := by
  refine (Gen.W2_of_ne m ρ c main_v1 (by decide)).trans ?_
  dsimp only [Gen.W1, Gen.hostOps0]
  after_results_simp <;> rfl

/-- Row 1 of the edge list, flattened, as the first region leaves it. -/
theorem W2_main_v3 : (Gen.W2 m ρ c (Proc.devRef .tc main_v3) : IVec S640000 32)
    = shapeCast S640000 (extractStridedSlice S1x640000 ![1, 0] (m ((c : Thread nD τ).loc main_arg1) : IVec S2x640000 32)
        slices_S2x640000_S1x640000_1_0) shapeCasts_S1x640000_S640000 := by
  refine (Gen.W2_of_ne m ρ c main_v3 (by decide)).trans ?_
  dsimp only [Gen.W1, Gen.hostOps0]
  after_results_simp <;> rfl

/-! ## The second stretch: from the first region to the second -/

/-- The second stretch's segment sum, as a term over the three buffers it reads from what the first region left. -/
theorem v37_raw : (Gen.V3 m ρ c main_v37 : S50000x64.Idx → EReal) =
    Host.scatterAdd (F := Ideal) scatter_S50000x64_S640000x1_S640000x64_1_0_0_1
      (broadcastInDim S50000x64 ![] bcast_S_S50000x64 (constant (F := Ideal) S_ .f32 0x00000000#32))
      (broadcastInDim S640000x1 ![0] bcast_S640000_S640000x1_0 (Gen.W2 m ρ c (Proc.devRef .tc main_v3) : IVec S640000 32))
      (extf .f32 (Host.gather gather_S50000x64_S640000x1_S640000x64_1_0_n_n_0_1_164
        (Gen.W2 m ρ c (Proc.devRef .tc main_v26_1) : FVec Ideal S50000x64 .bf16)
        (broadcastInDim S640000x1 ![0] bcast_S640000_S640000x1_0
          (select (cmpi .slt (Gen.W2 m ρ c (Proc.devRef .tc main_v1) : IVec S640000 32)
              (broadcastInDim S640000 ![] bcast_S_S640000 (constantI S_ 32 0#32)))
            (addi (Gen.W2 m ρ c (Proc.devRef .tc main_v1) : IVec S640000 32)
              (broadcastInDim S640000 ![] bcast_S_S640000 (constantI S_ 32 50000#32)))
            (Gen.W2 m ρ c (Proc.devRef .tc main_v1) : IVec S640000 32)))) bitsLt_bf16_f32) := by
  dsimp only [Gen.V3, Gen.W3, Gen.hostOps1]
  after_results_simp <;> rfl

/-- The second stretch's segment sum, over the source and target columns and the rows the first region stored. -/
theorem v37_eq : (Gen.V3 m ρ c main_v37 : S50000x64.Idx → EReal) =
    Host.scatterAdd (F := Ideal) scatter_S50000x64_S640000x1_S640000x64_1_0_0_1
      (broadcastInDim S50000x64 ![] bcast_S_S50000x64 (constant (F := Ideal) S_ .f32 0x00000000#32))
      (dstOf (m ((c : Thread nD τ).loc main_arg1)))
      (extf .f32 (Host.gather gather_S50000x64_S640000x1_S640000x64_1_0_n_n_0_1_164
        (Gen.W2 m ρ c (Proc.devRef .tc main_v26_1) : FVec Ideal S50000x64 .bf16)
        (srcOf (m ((c : Thread nD τ).loc main_arg1)))) bitsLt_bf16_f32) := by
  rw [v37_raw, W2_main_v1, W2_main_v3]
  rfl

/-- The sum over a node's neighbours of the rows the first region stored, whatever those rows are. -/
theorem V3_main_v37 (P : S50000x64.Idx → EReal)
    (hP : (Gen.W2 m ρ c (Proc.devRef .tc main_v26_1) : S50000x64.Idx → EReal) = P) (n : Fin 50000) (j : Fin 64) :
    (Gen.V3 m ρ c main_v37 : S50000x64.Idx → EReal) (ix2 n j)
      = Ideal.ofBits .f32 0x00000000#32
        + ∑ e ∈ Cert.Sage.seg (dstOf (m ((c : Thread nD τ).loc main_arg1))) n,
            P (ix2 (Cert.Sage.row (srcOf (m ((c : Thread nD τ).loc main_arg1))) e) j) := by
  subst hP
  exact (congrFun (v37_eq m ρ c) (ix2 n j)).trans (agg64_read _ _ _ n j)

/-! ### Buffers the second stretch leaves as the first region left them -/

theorem V3_main_v26_0 : Gen.V3 m ρ c main_v26_0 = Gen.W2 m ρ c (Proc.devRef .tc main_v26_0) :=
  StableHlo.after_of_forall_not_mem (b := Proc.devRef .tc main_v26_0) _ _ (by no_write Gen.hostOps1)
theorem V3_main_v12 : Gen.V3 m ρ c main_v12 = Gen.W2 m ρ c (Proc.devRef .tc main_v12) :=
  StableHlo.after_of_forall_not_mem (b := Proc.devRef .tc main_v12) _ _ (by no_write Gen.hostOps1)
theorem V3_main_arg7 : Gen.V3 m ρ c main_arg7 = Gen.W2 m ρ c (Proc.devRef .tc main_arg7) :=
  StableHlo.after_of_forall_not_mem (b := Proc.devRef .tc main_arg7) _ _ (by no_write Gen.hostOps1)

/-- The second bias, stored as a row. -/
theorem V3_main_v38 (j : Fin 64) :
    (Gen.V3 m ρ c main_v38 : S1x64.Idx → EReal) (ix2 (0 : Fin 1) j)
      = (Gen.W2 m ρ c (Proc.devRef .tc main_arg6) : S64.Idx → EReal) (ix1 j) := by
  have e : (Gen.V3 m ρ c main_v38 : S1x64.Idx → EReal)
      = shapeCast S1x64 (Gen.W2 m ρ c (Proc.devRef .tc main_arg6) : S64.Idx → EReal) shapeCasts_S64_S1x64 := by
    dsimp only [Gen.V3, Gen.W3, Gen.hostOps1]
    after_results_simp <;> rfl
  exact (congrFun e (ix2 (0 : Fin 1) j)).trans (shapeCast_a_1a_apply _ shapeCasts_S64_S1x64 (0 : Fin 1) j)

end Cert.KernelIdeal.HostParts

end
-- ==== Proof.KValue.lean ====
/-
  The kernel program's result as one function of its arguments.

  The program runs two stretches of host operations and two kernels.  The first stretch leaves the reciprocal
  in-degrees and the raw sums of the neighbours' features; the first kernel turns them, with the features and the
  first layer's weights, into the first layer's rows `h` and their products `p = h · W2_l`, block by block, each
  block a function of its own rows, so that the two result arrays are those functions of the arrays at every index;
  the second stretch sums the rows of `p` over each node's neighbours; the second kernel combines these sums with
  the reciprocal in-degrees, the bias and `h · W2_r`.  Read at an index, the chain is the arrangement `outK` of
  the two-layer mean aggregation: reciprocal first, projection before aggregation.
-/
import proofs.«170039_j37160057045597_2_alg».proof.Proof.Gen.KernelIdeal.Frame
import proofs.«170039_j37160057045597_2_alg».proof.Proof.Spec
import proofs.«170039_j37160057045597_2_alg».proof.Proof.LibSegment
import proofs.«170039_j37160057045597_2_alg».proof.Proof.KRegion0
import proofs.«170039_j37160057045597_2_alg».proof.Proof.KRegion1
import proofs.«170039_j37160057045597_2_alg».proof.Proof.KHost
import Idealize.ShloMosaic.Lib.ValueIdx

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx Cert.Sage Cert.LibSegment

section Glue
variable (src dst : IVec ⟨2, ![640000, 1]⟩ 32) (zb ob : EReal)

/-- The second kernel's combine over arrays that hold the aggregated projections, the first layer's rows, the root
    weight, the bias row and the reciprocal in-degrees is the first arrangement's second layer, entry by entry. -/
theorem glue (x : Ix2 50000 128 → EReal) (W1l : Ix2 128 128 → EReal) (b1 : Ix1 128 → EReal) (W1r : Ix2 128 128 → EReal)
    (W2l : Ix2 128 64 → EReal) (b2 : Ix1 64 → EReal) (W2r : Ix2 128 64 → EReal)
    (a : S50000x64.Idx → EReal) (h : S50000x128.Idx → EReal) (w : S128x64.Idx → EReal) (b : S1x64.Idx → EReal) (iv : S50000x1.Idx → EReal)
    (ha : ∀ n j, a (ix2 n j) = zb + ∑ e ∈ seg dst n, pK src dst x W1l b1 W1r W2l zb ob (row src e) j)
    (hh : ∀ n k, h (ix2 n k) = hK src dst x W1l b1 W1r zb ob n k)
    (hw : ∀ k j, w (ix2 k j) = W2r (ix2 k j))
    (hb : ∀ j, b (ix2 (0 : Fin 1) j) = b2 (ix1 j))
    (hiv : ∀ n, iv (ix2 n (0 : Fin 1)) = inv dst zb ob n) :
    Combine.G a h w b iv = fun i => outK src dst x W1l b1 W1r W2l b2 W2r zb ob (fst2 i) (snd2 i) := by
  funext i
  obtain ⟨n, j, rfl⟩ : ∃ (n : Fin 50000) (j : Fin 64), i = ix2 n j := ⟨i 0, i 1, eq_ix2 i⟩
  show Combine.Gat a h w b iv (ix2 n j) (ix2 n (0 : Fin 1)) (ix2 (0 : Fin 1) j) (fun k => ix2 n k) (fun k => ix2 k j) = outK src dst x W1l b1 W1r W2l b2 W2r zb ob n j
  unfold Combine.Gat outK
  rw [ha, hiv, hb]
  refine congrArg (_ + ·) (Finset.sum_congr rfl fun k _ => ?_)
  rw [hh, hw]

/-- The first kernel's rows over arrays that hold the neighbour sums, the features, the weights, the bias row and
    the reciprocal in-degrees are the first arrangement's first layer. -/
theorem glueH (x : Ix2 50000 128 → EReal) (W1l : Ix2 128 128 → EReal) (b1 : Ix1 128 → EReal) (W1r : Ix2 128 128 → EReal)
    (a1 : S50000x128.Idx → EReal) (xb : S50000x128.Idx → EReal) (w1l : S128x128.Idx → EReal) (b : S1x128.Idx → EReal)
    (w1r : S128x128.Idx → EReal) (iv : S50000x1.Idx → EReal)
    (ha1 : ∀ n k, a1 (ix2 n k) = agg src dst x (Ideal.ofBits .f32 0x00000000#32) n k)
    (hxb : ∀ n k, xb (ix2 n k) = x (ix2 n k))
    (hw1l : ∀ k k', w1l (ix2 k k') = W1l (ix2 k k'))
    (hb : ∀ k', b (ix2 (0 : Fin 1) k') = b1 (ix1 k'))
    (hw1r : ∀ k k', w1r (ix2 k k') = W1r (ix2 k k'))
    (hiv : ∀ n, iv (ix2 n (0 : Fin 1)) = inv dst (Ideal.ofBits .f32 0x00000000#32) ob n)
    (n : Fin 50000) (k' : Fin 128) :
    Layer1.H a1 xb w1l b w1r iv (ix2 n k') = hK src dst x W1l b1 W1r (Ideal.ofBits .f32 0x00000000#32) ob n k' := by
  rw [Layer1.H_apply]
  unfold hK
  simp only [ha1, hxb, hw1l, hb, hw1r, hiv]

/-- The first kernel's projected rows are the first arrangement's. -/
theorem glueP (x : Ix2 50000 128 → EReal) (W1l : Ix2 128 128 → EReal) (b1 : Ix1 128 → EReal) (W1r : Ix2 128 128 → EReal)
    (W2l : Ix2 128 64 → EReal)
    (a1 : S50000x128.Idx → EReal) (xb : S50000x128.Idx → EReal) (w1l : S128x128.Idx → EReal) (b : S1x128.Idx → EReal)
    (w1r : S128x128.Idx → EReal) (w2l : S128x64.Idx → EReal) (iv : S50000x1.Idx → EReal)
    (ha1 : ∀ n k, a1 (ix2 n k) = agg src dst x (Ideal.ofBits .f32 0x00000000#32) n k)
    (hxb : ∀ n k, xb (ix2 n k) = x (ix2 n k))
    (hw1l : ∀ k k', w1l (ix2 k k') = W1l (ix2 k k'))
    (hb : ∀ k', b (ix2 (0 : Fin 1) k') = b1 (ix1 k'))
    (hw1r : ∀ k k', w1r (ix2 k k') = W1r (ix2 k k'))
    (hw2l : ∀ k j, w2l (ix2 k j) = W2l (ix2 k j))
    (hiv : ∀ n, iv (ix2 n (0 : Fin 1)) = inv dst (Ideal.ofBits .f32 0x00000000#32) ob n)
    (n : Fin 50000) (j : Fin 64) :
    Layer1.P a1 xb w1l b w1r w2l iv (ix2 n j) = pK src dst x W1l b1 W1r W2l (Ideal.ofBits .f32 0x00000000#32) ob n j := by
  rw [Layer1.P_apply]
  unfold pK
  refine Finset.sum_congr rfl fun k _ => ?_
  rw [glueH src dst ob x W1l b1 W1r a1 xb w1l b w1r iv ha1 hxb hw1l hb hw1r hiv n k, hw2l]

end Glue

section Run
variable (m : (ℓ : Loc nD τ sig) → Buf (Elt Ideal) ℓ) (ρ : Dev nD → PrngReg) (c : Dev nD)

/-- After the first kernel its first result array holds the first layer's rows of the arrays it was started from. -/
theorem W2_h : (W2 m ρ c (Proc.devRef .tc main_v26_0) : S50000x128.Idx → EReal)
    = Layer1.H (V1 m ρ c main_v24) (V1 m ρ c main_v13) (V1 m ρ c main_arg2) (V1 m ρ c main_v25) (V1 m ρ c main_arg4) (V1 m ρ c main_v12) :=
  (W2_arr m ρ c 7).trans (Layer1.final7 (V1 m ρ) c)

/-- … and its second result array their products with the second layer's neighbour weight. -/
theorem W2_p : (W2 m ρ c (Proc.devRef .tc main_v26_1) : S50000x64.Idx → EReal)
    = Layer1.P (V1 m ρ c main_v24) (V1 m ρ c main_v13) (V1 m ρ c main_arg2) (V1 m ρ c main_v25) (V1 m ρ c main_arg4) (V1 m ρ c main_arg5) (V1 m ρ c main_v12) :=
  (W2_arr m ρ c 8).trans (Layer1.final8 (V1 m ρ) c)

/-- The reciprocal in-degrees are read, never written, by the first kernel. -/
theorem W2_iv : (W2 m ρ c (Proc.devRef .tc main_v12) : S50000x1.Idx → EReal) = V1 m ρ c main_v12 :=
  (W2_arr m ρ c 6).trans (Layer1.kept6 (V1 m ρ) c)

/-- THE RESULT: after the run the second kernel's output array holds the first arrangement of the two-layer
    mean aggregation of the program's arguments, at every index. -/
theorem value :
    (dat1 (F := Ideal) (V3 m ρ) c).arrAt 5 cfg1.N
      = fun i => Cert.Sage.outK (HostParts.srcOf (m ((c.tc : Thread nD τ).loc main_arg1))) (HostParts.dstOf (m ((c.tc : Thread nD τ).loc main_arg1)))
          (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (Ideal.ofBits .f32 0x00000000#32) (Ideal.ofBits .f32 0x3F800000#32)
          (Cert.LibSegment.fst2 i) (Cert.LibSegment.snd2 i) := by
  rw [Combine.final (V3 m ρ) c]
  -- the first stretch's arrays, entry by entry
  have ha1 : ∀ (n : Fin 50000) (k : Fin 128), (V1 m ρ c main_v24 : S50000x128.Idx → EReal) (ix2 n k)
      = agg (HostParts.srcOf (m ((c.tc : Thread nD τ).loc main_arg1))) (HostParts.dstOf (m ((c.tc : Thread nD τ).loc main_arg1)))
          (m ((c.tc : Thread nD τ).loc main_arg0)) (Ideal.ofBits .f32 0x00000000#32) n k := HostParts.V1_main_v24 m ρ c
  have hxb : ∀ (n : Fin 50000) (k : Fin 128), (V1 m ρ c main_v13 : S50000x128.Idx → EReal) (ix2 n k)
      = (m ((c.tc : Thread nD τ).loc main_arg0) : S50000x128.Idx → EReal) (ix2 n k) := fun n k => HostParts.V1_main_v13_apply m ρ c (ix2 n k)
  have hw1l : ∀ (k k' : Fin 128), (V1 m ρ c main_arg2 : S128x128.Idx → EReal) (ix2 k k')
      = (m ((c.tc : Thread nD τ).loc main_arg2) : S128x128.Idx → EReal) (ix2 k k') := fun k k' => by rw [HostParts.V1_main_arg2 m ρ c]
  have hb1 : ∀ (k' : Fin 128), (V1 m ρ c main_v25 : S1x128.Idx → EReal) (ix2 (0 : Fin 1) k')
      = (m ((c.tc : Thread nD τ).loc main_arg3) : S128.Idx → EReal) (ix1 k') := HostParts.V1_main_v25 m ρ c
  have hw1r : ∀ (k k' : Fin 128), (V1 m ρ c main_arg4 : S128x128.Idx → EReal) (ix2 k k')
      = (m ((c.tc : Thread nD τ).loc main_arg4) : S128x128.Idx → EReal) (ix2 k k') := fun k k' => by rw [HostParts.V1_main_arg4 m ρ c]
  have hw2l : ∀ (k : Fin 128) (j : Fin 64), (V1 m ρ c main_arg5 : S128x64.Idx → EReal) (ix2 k j)
      = (m ((c.tc : Thread nD τ).loc main_arg5) : S128x64.Idx → EReal) (ix2 k j) := fun k j => by rw [HostParts.V1_main_arg5 m ρ c]
  have hiv : ∀ (n : Fin 50000), (V1 m ρ c main_v12 : S50000x1.Idx → EReal) (ix2 n (0 : Fin 1))
      = inv (HostParts.dstOf (m ((c.tc : Thread nD τ).loc main_arg1))) (Ideal.ofBits .f32 0x00000000#32) (Ideal.ofBits .f32 0x3F800000#32) n :=
    HostParts.V1_main_v12 m ρ c
  refine glue (HostParts.srcOf (m ((c.tc : Thread nD τ).loc main_arg1))) (HostParts.dstOf (m ((c.tc : Thread nD τ).loc main_arg1)))
    (Ideal.ofBits .f32 0x00000000#32) (Ideal.ofBits .f32 0x3F800000#32)
    (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) _ _ _ _ _ ?_ ?_ ?_ ?_ ?_
  · intro n j
    refine (HostParts.V3_main_v37 m ρ c _ (W2_p m ρ c) n j).trans ?_
    refine congrArg (_ + ·) (Finset.sum_congr rfl fun e _ => ?_)
    exact glueP _ _ _ _ _ _ _ _ _ _ _ _ _ _ _ ha1 hxb hw1l hb1 hw1r hw2l hiv _ j
  · intro n k
    rw [HostParts.V3_main_v26_0 m ρ c, W2_h m ρ c]
    exact glueH _ _ _ _ _ _ _ _ _ _ _ _ _ ha1 hxb hw1l hb1 hw1r hiv n k
  · intro k j
    rw [HostParts.V3_main_arg7 m ρ c, HostParts.W2_main_arg7 m ρ c]
  · intro j
    refine (HostParts.V3_main_v38 m ρ c j).trans ?_
    rw [HostParts.W2_main_arg6 m ρ c]
  · intro n
    rw [HostParts.V3_main_v12 m ρ c, W2_iv m ρ c]
    exact hiv n

end Run

end Cert.KernelIdeal.KValue

end
-- ==== Proof.RefValue.lean ====
/-
  THE REFERENCE'S VALUE, INDEX BY INDEX.

  The reference computes two layers of mean aggregation over the graph.  Every stage of it is a named function of
  the arguments; each is read here at an index, innermost first, in the vocabulary of the specification:

    the in-degree's divisor   den n      (segment sum of ones, then the maximum with one)
    the neighbours' sum       agg n k    (row gather, then segment sum)
    the first layer           hR n k'    (divide, two products, the bias in the middle, then the maximum with zero)
    the second sum            agg2R n k  (row gather of the first layer, then segment sum)
    the result                outR n j   (divide, two products, the bias in the middle)

  The two edge columns (source rows, wrapped once when negative; target rows) are carried as opaque columns
  `srcOf` and `dstOf` of the edge list and never opened.
-/
import proofs.«170039_j37160057045597_2_alg».proof.Proof.Gen.ReferenceIdeal.Read
import proofs.«170039_j37160057045597_2_alg».proof.Proof.Spec
import proofs.«170039_j37160057045597_2_alg».proof.Proof.LibSegment
import proofs.«170039_j37160057045597_2_alg».proof.Proof.LibColumn
import Idealize.ShloMosaic.Lib.ValueIdx
import Idealize.ShloMosaic.PureOps.Ideal

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo Cert.LibSegment Cert.Sage

/-- The source column of the edge list: row 0, with a negative entry wrapped once by the number of nodes. -/
def srcOf (ei : IVec S2x640000 32) : IVec S640000x1 32 :=
  broadcastInDim S640000x1 ![0] bcast_S640000_S640000x1_0 (select (cmpi .slt (shapeCast _ (extractStridedSlice S1x640000 ![0, 0] ei slices_S2x640000_S1x640000_0_0) shapeCasts_S1x640000_S640000) (broadcastInDim S640000 ![] bcast_S_S640000 (constantI S_ 32 0#32))) (addi (shapeCast _ (extractStridedSlice S1x640000 ![0, 0] ei slices_S2x640000_S1x640000_0_0) shapeCasts_S1x640000_S640000) (broadcastInDim S640000 ![] bcast_S_S640000 (constantI S_ 32 50000#32))) (shapeCast _ (extractStridedSlice S1x640000 ![0, 0] ei slices_S2x640000_S1x640000_0_0) shapeCasts_S1x640000_S640000))

/-- The target column of the edge list: row 1. -/
def dstOf (ei : IVec S2x640000 32) : IVec S640000x1 32 :=
  broadcastInDim S640000x1 ![0] bcast_S640000_S640000x1_0 (shapeCast _ (extractStridedSlice S1x640000 ![1, 0] ei slices_S2x640000_S1x640000_1_0) shapeCasts_S1x640000_S640000)

/-- The pattern of zero. -/
local notation "zR" => (Ideal.ofBits FTy.f32 0x00000000#32)
/-- The pattern of one. -/
local notation "oR" => (Ideal.ofBits FTy.f32 0x3F800000#32)

section
variable (x0 : (⟨S50000x128, .f32⟩ : BufTy).Contents (Elt Ideal)) (x1 : (⟨S2x640000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128x64, .f32⟩ : BufTy).Contents (Elt Ideal))
  (x6 : (⟨S64, .f32⟩ : BufTy).Contents (Elt Ideal)) (x7 : (⟨S128x64, .f32⟩ : BufTy).Contents (Elt Ideal))

/-! ## The edge columns the stages read are the two opaque columns -/

theorem v9_eq : val_main_v9 (F := Ideal) x1 = srcOf x1 := rfl
theorem v34_eq : val_main_v34 (F := Ideal) x1 = srcOf x1 := rfl
theorem v12_eq : val_main_v12 (F := Ideal) x1 = dstOf x1 := rfl
theorem v16_eq : val_main_v16 (F := Ideal) x1 = dstOf x1 := rfl
theorem v37_eq : val_main_v37 (F := Ideal) x1 = dstOf x1 := rfl
theorem v41_eq : val_main_v41 (F := Ideal) x1 = dstOf x1 := rfl

/-! ## Index equations: each stage's operand index at a split index -/

theorem idx20_ix2 (n : Fin 50000) (k : Fin 128) : idx_main_v20 (ix2 n k) = ix2 n (0 : Fin 1) :=
  funext fun a => Fin.ext (by match a with | ⟨0, _⟩ => rfl | ⟨1, _⟩ => rfl)
theorem idx45_ix2 (n : Fin 50000) (k : Fin 128) : idx_main_v45 (ix2 n k) = ix2 n (0 : Fin 1) :=
  funext fun a => Fin.ext (by match a with | ⟨0, _⟩ => rfl | ⟨1, _⟩ => rfl)
theorem lidx22_ix2 (n : Fin 50000) (k' k : Fin 128) : lidx_main_v22 (ix2 n k') k = ix2 n k :=
  funext fun a => Fin.ext (by match a with | ⟨0, _⟩ => rfl | ⟨1, _⟩ => rfl)
theorem ridx22_ix2 (n : Fin 50000) (k' k : Fin 128) : ridx_main_v22 (ix2 n k') k = ix2 k k' :=
  funext fun a => Fin.ext (by match a with | ⟨0, _⟩ => rfl | ⟨1, _⟩ => rfl)
theorem lidx26_ix2 (n : Fin 50000) (k' k : Fin 128) : lidx_main_v26 (ix2 n k') k = ix2 n k :=
  funext fun a => Fin.ext (by match a with | ⟨0, _⟩ => rfl | ⟨1, _⟩ => rfl)
theorem ridx26_ix2 (n : Fin 50000) (k' k : Fin 128) : ridx_main_v26 (ix2 n k') k = ix2 k k' :=
  funext fun a => Fin.ext (by match a with | ⟨0, _⟩ => rfl | ⟨1, _⟩ => rfl)
theorem lidx47_ix2 (n : Fin 50000) (j : Fin 64) (k : Fin 128) : lidx_main_v47 (ix2 n j) k = ix2 n k :=
  funext fun a => Fin.ext (by match a with | ⟨0, _⟩ => rfl | ⟨1, _⟩ => rfl)
theorem ridx47_ix2 (n : Fin 50000) (j : Fin 64) (k : Fin 128) : ridx_main_v47 (ix2 n j) k = ix2 k j :=
  funext fun a => Fin.ext (by match a with | ⟨0, _⟩ => rfl | ⟨1, _⟩ => rfl)
theorem lidx51_ix2 (n : Fin 50000) (j : Fin 64) (k : Fin 128) : lidx_main_v51 (ix2 n j) k = ix2 n k :=
  funext fun a => Fin.ext (by match a with | ⟨0, _⟩ => rfl | ⟨1, _⟩ => rfl)
theorem ridx51_ix2 (n : Fin 50000) (j : Fin 64) (k : Fin 128) : ridx_main_v51 (ix2 n j) k = ix2 k j :=
  funext fun a => Fin.ext (by match a with | ⟨0, _⟩ => rfl | ⟨1, _⟩ => rfl)
theorem idx23_24_ix2 (n : Fin 50000) (k' : Fin 128) : idx_main_v23 (idx_main_v24 (ix2 n k')) = ix1 k' :=
  funext fun a => Fin.ext (by match a with | ⟨0, _⟩ => rfl)
theorem idx48_49_ix2 (n : Fin 50000) (j : Fin 64) : idx_main_v48 (idx_main_v49 (ix2 n j)) = ix1 j :=
  funext fun a => Fin.ext (by match a with | ⟨0, _⟩ => rfl)

/-! ## The constant stages -/

theorem v11_at (i : S50000x128.Idx) : val_main_v11 (F := Ideal) i = zR := by
  rw [val_main_v11_apply, val_main_cst_apply, Ideal.ofBits_def]
theorem v14_at (i : S640000x1.Idx) : val_main_v14 (F := Ideal) i = oR := by
  rw [val_main_v14_apply, val_main_cst_1_apply, Ideal.ofBits_def]
theorem v15_at (i : S50000x1.Idx) : val_main_v15 (F := Ideal) i = zR := by
  rw [val_main_v15_apply, val_main_cst_2_apply, Ideal.ofBits_def]
theorem v18_at (i : S50000x1.Idx) : val_main_v18 (F := Ideal) i = oR := by
  rw [val_main_v18_apply, val_main_cst_3_apply, Ideal.ofBits_def]
theorem call0_v0_at (i : S50000x128.Idx) : val_main_call0_v0 (F := Ideal) i = zR := by
  rw [val_main_call0_v0_apply, val_main_call0_cst_apply, Ideal.ofBits_def]
theorem v36_at (i : S50000x128.Idx) : val_main_v36 (F := Ideal) i = zR := by
  rw [val_main_v36_apply, val_main_cst_6_apply, Ideal.ofBits_def]
theorem v39_at (i : S640000x1.Idx) : val_main_v39 (F := Ideal) i = oR := by
  rw [val_main_v39_apply, val_main_cst_7_apply, Ideal.ofBits_def]
theorem v40_at (i : S50000x1.Idx) : val_main_v40 (F := Ideal) i = zR := by
  rw [val_main_v40_apply, val_main_cst_8_apply, Ideal.ofBits_def]
theorem v43_at (i : S50000x1.Idx) : val_main_v43 (F := Ideal) i = oR := by
  rw [val_main_v43_apply, val_main_cst_9_apply, Ideal.ofBits_def]

/-! ## The divisor of the mean -/

/-- The segment sum of ones from zero is the in-degree. -/
theorem v17_at (n : Fin 50000) :
    val_main_v17 (F := Ideal) x1 (ix2 n (0 : Fin 1)) = cnt (dstOf x1) zR oR n := by
  unfold val_main_v17
  rw [v16_eq]
  refine (host_scatterAdd_seg_apply (N := 50000) (E := 640000) (C := 1) (φ := .f32)
    scatter_S50000x1_S640000x1_S640000x1_1_0_0_1_wf (dstOf x1) (val_main_v15 (F := Ideal)) (val_main_v14 (F := Ideal))
    n (0 : Fin 1)).trans ?_
  rw [v15_at]
  unfold cnt seg
  exact congrArg _ (Finset.sum_congr rfl fun e _ => v14_at _)

/-- The divisor, first layer's. -/
theorem v19_at (n : Fin 50000) :
    val_main_v19 (F := Ideal) x1 (ix2 n (0 : Fin 1)) = den (dstOf x1) zR oR n := by
  rw [val_main_v19_apply, v17_at, v18_at, Ideal.maximumf_def]
  rfl

/-- The segment sum of ones from zero, computed a second time. -/
theorem v42_at (n : Fin 50000) :
    val_main_v42 (F := Ideal) x1 (ix2 n (0 : Fin 1)) = cnt (dstOf x1) zR oR n := by
  unfold val_main_v42
  rw [v41_eq]
  refine (host_scatterAdd_seg_apply (N := 50000) (E := 640000) (C := 1) (φ := .f32)
    scatter_S50000x1_S640000x1_S640000x1_1_0_0_1_wf (dstOf x1) (val_main_v40 (F := Ideal)) (val_main_v39 (F := Ideal))
    n (0 : Fin 1)).trans ?_
  rw [v40_at]
  unfold cnt seg
  exact congrArg _ (Finset.sum_congr rfl fun e _ => v39_at _)

/-- The divisor, second layer's. -/
theorem v44_at (n : Fin 50000) :
    val_main_v44 (F := Ideal) x1 (ix2 n (0 : Fin 1)) = den (dstOf x1) zR oR n := by
  rw [val_main_v44_apply, v42_at, v43_at, Ideal.maximumf_def]
  rfl

/-! ## The first layer -/

/-- The row gather of the features: edge `e` reads the row of its source. -/
theorem v10_at (e : Fin 640000) (k : Fin 128) :
    val_main_v10 (F := Ideal) x0 x1 (ix2 e k) = x0 (ix2 (row (srcOf x1) e) k) := by
  unfold val_main_v10
  rw [v9_eq]
  exact gather_rows_apply (N := 50000) (E := 640000) (C := 128) (by decide)
    gather_S50000x128_S640000x1_S640000x128_1_0_n_n_0_1_1128_wf x0 (srcOf x1) e k

/-- The segment sum of the gathered rows from zero is the neighbours' sum. -/
theorem v13_at (n : Fin 50000) (k : Fin 128) :
    val_main_v13 (F := Ideal) x0 x1 (ix2 n k) = agg (srcOf x1) (dstOf x1) x0 zR n k := by
  unfold val_main_v13
  rw [v12_eq]
  refine (host_scatterAdd_seg_apply (N := 50000) (E := 640000) (C := 128) (φ := .f32)
    scatter_S50000x128_S640000x1_S640000x128_1_0_0_1_wf (dstOf x1) (val_main_v11 (F := Ideal))
    (val_main_v10 (F := Ideal) x0 x1) n k).trans ?_
  rw [v11_at]
  unfold agg seg
  exact congrArg _ (Finset.sum_congr rfl fun e _ => v10_at x0 x1 e k)

/-- The mean: the neighbours' sum divided by the divisor. -/
theorem v21_at (n : Fin 50000) (k : Fin 128) :
    val_main_v21 (F := Ideal) x0 x1 (ix2 n k)
      = Ideal.div (agg (srcOf x1) (dstOf x1) x0 zR n k) (den (dstOf x1) zR oR n) := by
  rw [val_main_v21_apply, v13_at, val_main_v20_apply, idx20_ix2, v19_at, Ideal.hostDivf_def]

/-- The mean times the first weight matrix. -/
theorem v22_at (n : Fin 50000) (k' : Fin 128) :
    val_main_v22 (F := Ideal) x0 x1 x2 (ix2 n k')
      = ∑ k : Fin 128, Ideal.div (agg (srcOf x1) (dstOf x1) x0 zR n k) (den (dstOf x1) zR oR n) * x2 (ix2 k k') := by
  rw [val_main_v22_apply]
  refine Finset.sum_congr rfl fun k _ => ?_
  rw [lidx22_ix2, ridx22_ix2, v21_at]

/-- The first bias, laid along the rows. -/
theorem v24_at (n : Fin 50000) (k' : Fin 128) : val_main_v24 (F := Ideal) x3 (ix2 n k') = x3 (ix1 k') := by
  rw [val_main_v24_apply, val_main_v23_apply, idx23_24_ix2]

/-- The node's own features times the root weight matrix. -/
theorem v26_at (n : Fin 50000) (k' : Fin 128) :
    val_main_v26 (F := Ideal) x0 x4 (ix2 n k') = ∑ k : Fin 128, x0 (ix2 n k) * x4 (ix2 k k') := by
  rw [val_main_v26_apply]
  refine Finset.sum_congr rfl fun k _ => ?_
  rw [lidx26_ix2, ridx26_ix2]

/-- The first layer's row, after the maximum with zero. -/
theorem v28_at (n : Fin 50000) (k' : Fin 128) :
    val_main_v28 (F := Ideal) x0 x1 x2 x3 x4 (ix2 n k')
      = hR (srcOf x1) (dstOf x1) x0 x2 x3 x4 zR oR n k' := by
  rw [val_main_v28_apply, val_main_v27_apply, val_main_v25_apply, v22_at, v24_at, v26_at, call0_v0_at,
    Ideal.maximumf_def, Ideal.addf_def, Ideal.addf_def]
  unfold hR
  rfl

/-! ## The second layer -/

/-- The row gather of the first layer: edge `e` reads the first layer's row of its source. -/
theorem v35_at (e : Fin 640000) (k : Fin 128) :
    val_main_v35 (F := Ideal) x0 x1 x2 x3 x4 (ix2 e k)
      = hR (srcOf x1) (dstOf x1) x0 x2 x3 x4 zR oR (row (srcOf x1) e) k := by
  unfold val_main_v35
  rw [v34_eq]
  refine (gather_rows_apply (N := 50000) (E := 640000) (C := 128) (by decide)
    gather_S50000x128_S640000x1_S640000x128_1_0_n_n_0_1_1128_wf (val_main_v28 (F := Ideal) x0 x1 x2 x3 x4) (srcOf x1)
    e k).trans ?_
  exact v28_at x0 x1 x2 x3 x4 _ k

/-- The segment sum of the gathered first-layer rows from zero. -/
theorem v38_at (n : Fin 50000) (k : Fin 128) :
    val_main_v38 (F := Ideal) x0 x1 x2 x3 x4 (ix2 n k)
      = agg2R (srcOf x1) (dstOf x1) x0 x2 x3 x4 zR oR n k := by
  unfold val_main_v38
  rw [v37_eq]
  refine (host_scatterAdd_seg_apply (N := 50000) (E := 640000) (C := 128) (φ := .f32)
    scatter_S50000x128_S640000x1_S640000x128_1_0_0_1_wf (dstOf x1) (val_main_v36 (F := Ideal))
    (val_main_v35 (F := Ideal) x0 x1 x2 x3 x4) n k).trans ?_
  rw [v36_at]
  unfold agg2R seg
  exact congrArg _ (Finset.sum_congr rfl fun e _ => v35_at x0 x1 x2 x3 x4 e k)

/-- The second mean. -/
theorem v46_at (n : Fin 50000) (k : Fin 128) :
    val_main_v46 (F := Ideal) x0 x1 x2 x3 x4 (ix2 n k)
      = Ideal.div (agg2R (srcOf x1) (dstOf x1) x0 x2 x3 x4 zR oR n k) (den (dstOf x1) zR oR n) := by
  rw [val_main_v46_apply, v38_at, val_main_v45_apply, idx45_ix2, v44_at, Ideal.hostDivf_def]

/-- The second mean times the second weight matrix. -/
theorem v47_at (n : Fin 50000) (j : Fin 64) :
    val_main_v47 (F := Ideal) x0 x1 x2 x3 x4 x5 (ix2 n j)
      = ∑ k : Fin 128, Ideal.div (agg2R (srcOf x1) (dstOf x1) x0 x2 x3 x4 zR oR n k) (den (dstOf x1) zR oR n)
          * x5 (ix2 k j) := by
  rw [val_main_v47_apply]
  refine Finset.sum_congr rfl fun k _ => ?_
  rw [lidx47_ix2, ridx47_ix2, v46_at]

/-- The second bias, laid along the rows. -/
theorem v49_at (n : Fin 50000) (j : Fin 64) : val_main_v49 (F := Ideal) x6 (ix2 n j) = x6 (ix1 j) := by
  rw [val_main_v49_apply, val_main_v48_apply, idx48_49_ix2]

/-- The first layer's row times the second root weight matrix. -/
theorem v51_at (n : Fin 50000) (j : Fin 64) :
    val_main_v51 (F := Ideal) x0 x1 x2 x3 x4 x7 (ix2 n j)
      = ∑ k : Fin 128, hR (srcOf x1) (dstOf x1) x0 x2 x3 x4 zR oR n k * x7 (ix2 k j) := by
  rw [val_main_v51_apply]
  refine Finset.sum_congr rfl fun k _ => ?_
  rw [lidx51_ix2, ridx51_ix2, v28_at]

/-- The result at a split index. -/
theorem v52_at (n : Fin 50000) (j : Fin 64) :
    val_main_v52 (F := Ideal) x0 x1 x2 x3 x4 x5 x6 x7 (ix2 n j)
      = outR (srcOf x1) (dstOf x1) x0 x2 x3 x4 x5 x6 x7 zR oR n j := by
  rw [val_main_v52_apply, val_main_v50_apply, v47_at, v49_at, v51_at, Ideal.addf_def, Ideal.addf_def]
  unfold outR
  rfl

/-- THE REFERENCE'S VALUE: at every index `i = (n, j)`, the second arrangement of the specification over the two
    edge columns. -/
theorem value_eq :
    Cert.ReferenceIdeal.Read.val_main_v52 (F := Ideal) x0 x1 x2 x3 x4 x5 x6 x7
      = fun i => Cert.Sage.outR (srcOf x1) (dstOf x1) x0 x2 x3 x4 x5 x6 x7 (Ideal.ofBits .f32 0x00000000#32)
          (Ideal.ofBits .f32 0x3F800000#32) (Cert.LibSegment.fst2 i) (Cert.LibSegment.snd2 i) := by
  funext i
  obtain ⟨n, j, rfl⟩ : ∃ (n : Fin 50000) (j : Fin 64), i = ix2 n j := ⟨i 0, i 1, eq_ix2 i⟩
  exact v52_at x0 x1 x2 x3 x4 x5 x6 x7 n j

end

end Cert.ReferenceIdeal.RefValue

end
-- ==== Proof.Algebra.lean ====
/-
  The two arrangements of the two-layer mean aggregation agree.

  With the patterns of zero and one read as the numbers 0 and 1, the in-degree of a node is the number of its
  edges, the divisor of the mean is a real number c ≥ 1, and dividing by it is multiplying by the real number
  1/c, for every extended real dividend.  So the two first layers differ only in the order of a sum of three
  terms, and agree with no finiteness at all.  The second layers differ by an exchange of two finite sums and the
  distribution of a product over a sum, which hold once the first layer and the matrix W2l are real numbers.
-/
import proofs.«170039_j37160057045597_2_alg».proof.Proof.Spec

noncomputable section

open scoped BigOperators

namespace Cert.Sage

open Idealize.ShloMosaic Idealize.ShloMosaic.ValueIdx Cert.LibSegment

/-! ### Extended reals that are real numbers -/

theorem Fin'.coe (r : ℝ) : Fin' (r : EReal) := ⟨EReal.coe_ne_top r, EReal.coe_ne_bot r⟩

theorem Fin'.coe_toReal {a : EReal} (h : Fin' a) : ((a.toReal : ℝ) : EReal) = a := EReal.coe_toReal h.1 h.2

theorem Fin'.exists_coe {a : EReal} (h : Fin' a) : ∃ r : ℝ, a = (r : EReal) := ⟨a.toReal, h.coe_toReal.symm⟩

theorem Fin'.zero : Fin' (0 : EReal) := by
  rw [← EReal.coe_zero]; exact Fin'.coe 0

theorem Fin'.add {a b : EReal} (ha : Fin' a) (hb : Fin' b) : Fin' (a + b) := by
  obtain ⟨r, rfl⟩ := ha.exists_coe
  obtain ⟨s, rfl⟩ := hb.exists_coe
  rw [← EReal.coe_add]; exact Fin'.coe _

theorem Fin'.mul {a b : EReal} (ha : Fin' a) (hb : Fin' b) : Fin' (a * b) := by
  obtain ⟨r, rfl⟩ := ha.exists_coe
  obtain ⟨s, rfl⟩ := hb.exists_coe
  rw [← EReal.coe_mul]; exact Fin'.coe _

theorem Fin'.max {a b : EReal} (ha : Fin' a) (hb : Fin' b) : Fin' (max a b) := by
  rcases max_choice a b with h | h <;> rw [h] <;> assumption

theorem Fin'.sum {ι : Type*} (s : Finset ι) (f : ι → EReal) (h : ∀ i ∈ s, Fin' (f i)) :
    Fin' (∑ i ∈ s, f i) := by
  classical
  induction s using Finset.induction_on with
  | empty => rw [Finset.sum_empty]; exact Fin'.zero
  | insert a s ha ih =>
    rw [Finset.sum_insert ha]
    exact (h _ (Finset.mem_insert_self _ _)).add (ih fun i hi => h i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-! ### The second layer's law, over the reals

  Summing over a segment the rows already multiplied by a matrix column, then taking the mean, is taking the
  mean of the rows and then multiplying by the matrix column. -/

theorem layer2_law {ι κ : Type*} [Fintype κ] (s : Finset ι) (h : ι → κ → ℝ) (W : κ → ℝ) (d : ℝ) :
    ((0 : EReal) + ∑ e ∈ s, ∑ k, (h e k : EReal) * (W k : EReal)) * (d : EReal)
      = ∑ k, (((0 : EReal) + ∑ e ∈ s, (h e k : EReal)) * (d : EReal)) * (W k : EReal) := by
  simp only [zero_add, ← EReal.coe_mul, ← coe_sum]
  congr 1
  rw [Finset.sum_comm, Finset.sum_mul]
  refine Finset.sum_congr rfl fun k _ => ?_
  rw [← Finset.sum_mul]; ring

section
variable (src dst : IVec ⟨2, ![640000, 1]⟩ 32)
variable (x : Ix2 50000 128 → EReal) (W1l : Ix2 128 128 → EReal) (b1 : Ix1 128 → EReal) (W1r : Ix2 128 128 → EReal)
  (W2l : Ix2 128 64 → EReal) (b2 : Ix1 64 → EReal) (W2r : Ix2 128 64 → EReal)

/-! ### The divisor of the mean is a real number, at least one -/

/-- The divisor as a real number: the in-degree, at least one. -/
def cR (n : Fin 50000) : ℝ := max ((seg dst n).card : ℝ) 1

theorem cR_ne_zero (n : Fin 50000) : cR dst n ≠ 0 :=
  (lt_of_lt_of_le one_pos (le_max_right _ _)).ne'

theorem cnt_eq (n : Fin 50000) : cnt dst 0 1 n = (((seg dst n).card : ℝ) : EReal) := by
  rw [cnt, zero_add, ← EReal.coe_one, ← coe_sum, Finset.sum_const, nsmul_eq_mul, mul_one]

theorem den_eq (n : Fin 50000) : den dst 0 1 n = ((cR dst n : ℝ) : EReal) := by
  rw [den, cnt_eq, cR, ← EReal.coe_one]
  exact (EReal.coe_strictMono.monotone.map_max).symm

/-- Dividing by the divisor is multiplying by its reciprocal, for every extended real dividend. -/
theorem div_den (n : Fin 50000) (a : EReal) :
    Ideal.div a (den dst 0 1 n) = a * ((1 / cR dst n : ℝ) : EReal) := by
  rw [den_eq]; exact Ideal.div_coe (cR_ne_zero dst n) a

theorem inv_eq (n : Fin 50000) : inv dst 0 1 n = ((1 / cR dst n : ℝ) : EReal) := by
  rw [inv, div_den, one_mul]

/-! ### The first layers agree -/

theorem hK_eq_hR (n : Fin 50000) (k' : Fin 128) :
    hK src dst x W1l b1 W1r 0 1 n k' = hR src dst x W1l b1 W1r 0 1 n k' := by
  unfold hK hR
  simp only [div_den, inv_eq]
  rw [add_right_comm]

/-! ### The first layer is real on real inputs -/

theorem agg_fin (hx : ∀ i, Fin' (x i)) (n : Fin 50000) (k : Fin 128) : Fin' (agg src dst x 0 n k) :=
  Fin'.zero.add (Fin'.sum _ _ fun _ _ => hx _)

theorem hR_fin (hx : ∀ i, Fin' (x i)) (hW1l : ∀ i, Fin' (W1l i)) (hb1 : ∀ i, Fin' (b1 i))
    (hW1r : ∀ i, Fin' (W1r i)) (n : Fin 50000) (k' : Fin 128) :
    Fin' (hR src dst x W1l b1 W1r 0 1 n k') := by
  unfold hR
  refine Fin'.max ?_ Fin'.zero
  refine ((Fin'.sum _ _ fun k _ => ?_).add (hb1 _)).add (Fin'.sum _ _ fun k _ => (hx _).mul (hW1r _))
  rw [div_den]
  exact ((agg_fin src dst x hx n k).mul (Fin'.coe _)).mul (hW1l _)

end

/-! ### The two arrangements agree -/

theorem outK_eq_outR (src dst : IVec ⟨2, ![640000, 1]⟩ 32) (x : Ix2 50000 128 → EReal) (W1l : Ix2 128 128 → EReal)
    (b1 : Ix1 128 → EReal) (W1r : Ix2 128 128 → EReal) (W2l : Ix2 128 64 → EReal) (b2 : Ix1 64 → EReal)
    (W2r : Ix2 128 64 → EReal) (z o : EReal) (hz : z = 0) (ho : o = 1)
    (hx : ∀ i, Fin' (x i)) (hW1l : ∀ i, Fin' (W1l i)) (hb1 : ∀ i, Fin' (b1 i)) (hW1r : ∀ i, Fin' (W1r i))
    (hW2l : ∀ i, Fin' (W2l i)) (n : Fin 50000) (j : Fin 64) :
    outK src dst x W1l b1 W1r W2l b2 W2r z o n j = outR src dst x W1l b1 W1r W2l b2 W2r z o n j := by
  subst hz ho
  have hh : ∀ m k, hK src dst x W1l b1 W1r 0 1 m k = hR src dst x W1l b1 W1r 0 1 m k :=
    hK_eq_hR src dst x W1l b1 W1r
  have h1 : ∀ m k, (((hR src dst x W1l b1 W1r 0 1 m k).toReal : ℝ) : EReal) = hR src dst x W1l b1 W1r 0 1 m k :=
    fun m k => (hR_fin src dst x W1l b1 W1r hx hW1l hb1 hW1r m k).coe_toReal
  have h2 : ∀ k : Fin 128, (((W2l (ix2 k j)).toReal : ℝ) : EReal) = W2l (ix2 k j) :=
    fun k => (hW2l _).coe_toReal
  have key := layer2_law (seg dst n) (fun e k => (hR src dst x W1l b1 W1r 0 1 (row src e) k).toReal)
    (fun k : Fin 128 => (W2l (ix2 k j)).toReal) (1 / cR dst n)
  simp only [h1, h2] at key
  unfold outK outR pK agg2R
  simp only [hh, div_den, inv_eq]
  rw [key]

end Cert.Sage

end
-- ==== Proof.Finite.lean ====
/-
  Finiteness of the float inputs, read back from the precondition.

  The precondition is the conjunction, over the seven float inputs `a`, of "every element of `|a|` is below
  `+∞`".  Each conjunct is a reduction by `and` of the elementwise comparison `|a i| < +∞`; if the whole
  conjunction is 1 then each reduction is 1, hence each comparison is 1, hence `max (a i) (-(a i)) < ⊤`, which
  rules out both `a i = ⊤` and `a i = ⊥` (as `-⊥ = ⊤`).
-/
import proofs.«170039_j37160057045597_2_alg».proof.Pre_finite_inputs
import proofs.«170039_j37160057045597_2_alg».proof.Proof.Spec
import Idealize.ShloMosaic.Lib.ReduceAll
import Idealize.ShloMosaic.Lib.ValueIdx
import Idealize.ShloMosaic.PureOps.Ideal.Laws

noncomputable section

namespace Cert.Proof.Finite

open Idealize.ShloMosaic Idealize.ShloMosaic.ValueIdx Cert.Pre_finite_inputs

/-- The pattern `0x7F800000` denotes `+∞`. -/
theorem inf_pat : Ideal.ofBits .f32 0x7F800000#32 = (⊤ : EReal) := by
  simp [Ideal.ofBits, Ideal.ieee]

/-- An element whose absolute value compares below `+∞` is neither `⊤` nor `⊥`. -/
theorem fin_of_cmp (a : EReal)
    (h : Ideal.cmp .olt (max a (-a)) (Ideal.ofBits .f32 0x7F800000#32) = 1#1) : Cert.Sage.Fin' a := by
  rw [inf_pat] at h
  have hlt : max a (-a) < ⊤ := by
    by_contra hn
    simp [Ideal.cmp, hn] at h
  constructor
  · rintro rfl
    simp at hlt
  · rintro rfl
    simp at hlt

/-- A shape of rank 0 has a single index. -/
instance scalarIdx_subsingleton : Subsingleton S_.Idx := ⟨fun a b => funext fun d => d.elim0⟩

/-- One conjunct of the precondition, read at an index: the scalar pattern is broadcast to every index. -/
theorem fin_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) (i : s.Idx) : Cert.Sage.Fin' (x i) :=
  fin_of_cmp (x i) (Host.reduce_andi_all _ _ hr hu ix0 e i)

/-- If the precondition holds (its one output word is 1) then every element of each float input is finite:
    the output is the `and` of the seven reductions, so each of them is 1. -/
theorem finite_of_fn [Facts] (a0 : FVec Ideal S50000x128 .f32) (a1 : IVec S2x640000 32) (a2 : FVec Ideal S128x128 .f32)
    (a3 : FVec Ideal S128 .f32) (a4 : FVec Ideal S128x128 .f32) (a5 : FVec Ideal S128x64 .f32)
    (a6 : FVec Ideal S64 .f32) (a7 : FVec Ideal S128x64 .f32)
    (h : Cert.Pre_finite_inputs.fn (F := Ideal) a0 a1 a2 a3 a4 a5 a6 a7 = fun _ => 1#1) :
    (∀ i, Cert.Sage.Fin' (a0 i)) ∧ (∀ i, Cert.Sage.Fin' (a2 i)) ∧ (∀ i, Cert.Sage.Fin' (a3 i))
      ∧ (∀ i, Cert.Sage.Fin' (a4 i)) ∧ (∀ i, Cert.Sage.Fin' (a5 i)) ∧ (∀ i, Cert.Sage.Fin' (a6 i))
      ∧ (∀ i, Cert.Sage.Fin' (a7 i)) := by
  have h0 := congrFun h ix0
  dsimp only [fn, fn_part1, andi] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨fin_of_all a0 _ _ _ e0, fin_of_all a2 _ _ _ e2, fin_of_all a3 _ _ _ e3, fin_of_all a4 _ _ _ e4,
    fin_of_all a5 _ _ _ e5, fin_of_all a6 _ _ _ e6, fin_of_all a7 _ _ _ e7⟩

end Cert.Proof.Finite
-- ==== Proof.Consts.lean ====
/-
  The two float literals of the computation as extended reals: the pattern of 1.0 is 1 and the pattern of 0.0 is 0.
-/
import Idealize.ShloMosaic.PureOps.Ideal.Laws

noncomputable section

namespace Cert.Sage.Consts

open Idealize.ShloMosaic

/-- `0x3F800000`: sign 0, exponent 127 (the bias), fraction 0, that is `2^23 · 2^(-23) = 1`. -/
theorem ofBits_one : Ideal.ofBits .f32 0x3F800000#32 = (1 : EReal) := by
  simp [Ideal.ofBits, Ideal.ieee, -EReal.coe_mul]; norm_num

/-- The all-zero pattern is `0`. -/
theorem ofBits_zero : Ideal.ofBits .f32 0x00000000#32 = (0 : EReal) := Ideal.ofBits_zero_f32

end Cert.Sage.Consts

end
-- ==== Proof.lean ====
/-
  A two-layer mean-aggregation network on a graph (50000 nodes, 640000 edges): each layer takes, per node, the
  mean of its in-neighbours' rows, multiplies the mean and the node's own row by two weight matrices, and adds a
  bias; the first layer ends in `max · 0`.  The kernel multiplies the segment sums by the reciprocal of the
  in-degree (at least 1) and, in the second layer, multiplies the rows by `W2_l` BEFORE summing over the segment;
  the reference divides the segment sums by the in-degree and multiplies by `W2_l` AFTER taking the mean.

  On the extended reals the two arrangements are equal whenever every float input is finite, which the
  precondition states: finite sums and products of finite values are real numbers, where multiplication
  distributes over finite sums and commutes with them, and dividing by a nonzero real is multiplying by its
  reciprocal (`Cert.Sage.outK_eq_outR`).  The kernel's result array holds the first arrangement
  (`Cert.KernelIdeal.KValue.value` over the run `Cert.KernelIdeal.RunValue.run`), the reference's the second
  (`Cert.ReferenceIdeal.RefValue.value_eq`), over the same two edge columns of the same arguments.

  The three frame claims (each program terminates without fault and leaves its arguments as launched) are the
  programs' runs; the kernel's idealization rewrites no operation, so that it is preserved says nothing.
-/
import proofs.«170039_j37160057045597_2_alg».proof.Defs
import proofs.«170039_j37160057045597_2_alg».proof.Proof.Gen.Kernel
import proofs.«170039_j37160057045597_2_alg».proof.Proof.Gen.Kernel.Skeleton
import proofs.«170039_j37160057045597_2_alg».proof.Proof.Gen.Kernel.Launch
import proofs.«170039_j37160057045597_2_alg».proof.Proof.Gen.Kernel.Points
import proofs.«170039_j37160057045597_2_alg».proof.Proof.Gen.Kernel.Frame
import proofs.«170039_j37160057045597_2_alg».proof.Proof.Gen.KernelIdeal
import proofs.«170039_j37160057045597_2_alg».proof.Proof.Gen.KernelIdeal.Skeleton
import proofs.«170039_j37160057045597_2_alg».proof.Proof.Gen.KernelIdeal.Launch
import proofs.«170039_j37160057045597_2_alg».proof.Proof.Gen.KernelIdeal.Points
import proofs.«170039_j37160057045597_2_alg».proof.Proof.Gen.KernelIdeal.Frame
import proofs.«170039_j37160057045597_2_alg».proof.Proof.Gen.ReferenceIdeal
import proofs.«170039_j37160057045597_2_alg».proof.Proof.Gen.Pre_finite_inputs
import proofs.«170039_j37160057045597_2_alg».proof.Proof.Gen.ReferenceIdeal.Run
import proofs.«170039_j37160057045597_2_alg».proof.Proof.Gen.ReferenceIdeal.Read
import proofs.«170039_j37160057045597_2_alg».proof.Proof.KRun
import proofs.«170039_j37160057045597_2_alg».proof.Proof.KValue
import proofs.«170039_j37160057045597_2_alg».proof.Proof.RefValue
import proofs.«170039_j37160057045597_2_alg».proof.Proof.Algebra
import proofs.«170039_j37160057045597_2_alg».proof.Proof.Finite
import proofs.«170039_j37160057045597_2_alg».proof.Proof.Consts
import Idealize.ShloMosaic.Adequacy
import Idealize.ShloMosaic.Init

noncomputable section

open Idealize.ShloMosaic Idealize.ShloMosaic.TcCoe Idealize.SL.Sem

namespace Cert.Proof.Parts

/-- The kernel as printed runs and leaves its arguments as launched. -/
theorem frame_k : Cert.frame_Kernel := fun m ρ _ => Cert.Kernel.Gen.frame m ρ

/-- The kernel read over the extended reals runs and leaves its arguments as launched. -/
theorem frame_ki : Cert.frame_KernelIdeal := fun m ρ _ => Cert.KernelIdeal.Gen.frame m ρ

/-- The reference read over the extended reals runs and leaves its arguments as launched: its run, the result
    forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- The two programs read the same two edge columns off the edge list: row 0 with a negative entry wrapped once,
    and row 1. -/
theorem srcOf_eq (ei : IVec Cert.KernelIdeal.S2x640000 32) :
    Cert.ReferenceIdeal.RefValue.srcOf ei = Cert.KernelIdeal.HostParts.srcOf ei := rfl
theorem dstOf_eq (ei : IVec Cert.KernelIdeal.S2x640000 32) :
    Cert.ReferenceIdeal.RefValue.dstOf ei = Cert.KernelIdeal.HostParts.dstOf ei := rfl

/-- From memories agreeing on the arguments, of which the first has every float input finite, both programs run,
    leave their arguments as launched, and end with the same result: the kernel's is the first arrangement of the
    network at every index, the reference's the second, and the two are equal on finite inputs. -/
theorem algebraic : Cert.algebraic_KernelIdeal_ReferenceIdeal := by
  intro m ρ m' ρ' hpre hagree
  refine ⟨_, (θ_run Cert.KernelIdeal.defs _ _).mono
      (fun r h c => ⟨(h c).1.trans (Cert.KernelIdeal.KValue.value m ρ c), (h c).2⟩)
      (Cert.KernelIdeal.RunValue.run (F := Ideal) m ρ), ?_⟩
  refine (θ_run Cert.ReferenceIdeal.defs _ _).mono (fun r h c => ⟨?_, (h c).2⟩)
    (Cert.ReferenceIdeal.Value.run (F := Ideal) m' ρ')
  obtain ⟨e0, e1, e2, e3, e4, e5, e6, e7⟩ := hagree c
  obtain ⟨f0, f2, f3, f4, f5, -, -⟩ := Cert.Proof.Finite.finite_of_fn _ _ _ _ _ _ _ _ (hpre c)
  rw [(h c).1, Cert.ReferenceIdeal.Read.val_main_v52_eq, Cert.ReferenceIdeal.RefValue.value_eq,
    e0, e1, e2, e3, e4, e5, e6, e7, srcOf_eq, dstOf_eq]
  funext i
  exact (Cert.Sage.outK_eq_outR _ _ _ _ _ _ _ _ _ _ _ Cert.Sage.Consts.ofBits_zero Cert.Sage.Consts.ofBits_one
    f0 f2 f3 f4 f5 (Cert.LibSegment.fst2 i) (Cert.LibSegment.snd2 i)).symm

end Cert.Proof.Parts

namespace Cert.Proof

open Cert.Proof.Parts

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
